-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v71)) (v2 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_v71) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x16 : Shape := ⟨2, ![256, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S256x256 .f32) (main_arg9 : FVec F S256 .f32) (main_arg10 : FVec F S256x16 .f32) (main_arg11 : FVec F S16 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x16 .f32 := Host.absf main_arg10
  let main_cst_16 : FVec F S_ .f32 := constant S_ .f32 0x7F800000#32
  let main_v45 : FVec F S256x16 .f32 := broadcastInDim S256x16 ![] bcast_S_S256x16 main_cst_16
  let main_v46 : IVec S256x16 1 := cmpf .olt main_v44 main_v45
  let main_c_17 : IVec S_ 1 := constantI S_ 1 1#1
  let main_v47 : IVec S_ 1 := (fun x v => Host.reduce IntOp.andi x v reducesTo_S256x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S3x256 .f32) (main_arg6 : FVec F S3x256x256 .f32) (main_arg7 : FVec F S3x256 .f32) (main_arg8 : FVec F S256x256 .f32) (main_arg9 : FVec F S256 .f32) (main_arg10 : FVec F S256x16 .f32) (main_arg11 : FVec F S16 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256x256 .f32 := Host.absf main_arg6
  let main_cst_8 : FVec F S_ .f32 := constant S_ .f32 0x7F800000#32
  let main_v25 : FVec F S3x256x256 .f32 := broadcastInDim S3x256x256 ![] bcast_S_S3x256x256 main_cst_8
  let main_v26 : IVec S3x256x256 1 := cmpf .olt main_v24 main_v25
  let main_c_9 : IVec S_ 1 := constantI S_ 1 1#1
  let main_v27 : IVec S_ 1 := (fun x v => Host.reduce IntOp.andi x v reducesTo_S3x256x256_S_d0_1_2 h_S_) main_v26 main_c_9
  let main_v28 : IVec S_ 1 := andi main_v23 main_v27
  let main_v29 : FVec F S3x256 .f32 := Host.absf main_arg7
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x256 .f32) (main_arg3 : FVec F S256 .f32) (main_arg4 : FVec F S3x256x256 .f32) (main_arg5 : FVec F S3x256 .f32) (main_arg6 : FVec F S3x256x256 .f32) (main_arg7 : FVec F S3x256 .f32) (main_arg8 : FVec F S256x256 .f32) (main_arg9 : FVec F S256 .f32) (main_arg10 : FVec F S256x16 .f32) (main_arg11 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S1x16 : Shape := ⟨2, ![1, 16]⟩
abbrev S50000x16 : Shape := ⟨2, ![50000, 16]⟩
abbrev S2000x16 : Shape := ⟨2, ![2000, 16]⟩
abbrev S2000 : Shape := ⟨1, ![2000]⟩
abbrev S2000x1 : Shape := ⟨2, ![2000, 1]⟩

abbrev nBuf : Space → Nat
  | .hbm => 96
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S3x256x256, .f32⟩
  | .hbm, ⟨5, _⟩ => ⟨S3x256, .f32⟩
  | .hbm, ⟨6, _⟩ => ⟨S3x256x256, .f32⟩
  | .hbm, ⟨7, _⟩ => ⟨S3x256, .f32⟩
  | .hbm, ⟨8, _⟩ => ⟨S256x256, .f32⟩
  | .hbm, ⟨9, _⟩ => ⟨S256, .f32⟩
  | .hbm, ⟨10, _⟩ => ⟨S256x16, .f32⟩
  | .hbm, ⟨11, _⟩ => ⟨S16, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S1x256, .f32⟩
  | .hbm, ⟨17, _⟩ => ⟨S50000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S_, .f32⟩
  | .hbm, ⟨28, _⟩ => ⟨S50000x256, .f32⟩
  | .hbm, ⟨29, _⟩ => ⟨S800000x1, .i32⟩
  | .hbm, ⟨30, _⟩ => ⟨S50000x256, .f32⟩
  | .hbm, ⟨31, _⟩ => ⟨S50000x256, .f32⟩
  | .hbm, ⟨32, _⟩ => ⟨S1x256x256, .f32⟩
  | .hbm, ⟨33, _⟩ => ⟨S256x256, .f32⟩
  | .hbm, ⟨34, _⟩ => ⟨S1x256, .f32⟩
  | .hbm, ⟨35, _⟩ => ⟨S256, .f32⟩
  | .hbm, ⟨36, _⟩ => ⟨S1x256x256, .f32⟩
  | .hbm, ⟨37, _⟩ => ⟨S256x256, .f32⟩
  | .hbm, ⟨38, _⟩ => ⟨S1x256, .f32⟩
  | .hbm, ⟨39, _⟩ => ⟨S256, .f32⟩
  | .hbm, ⟨40, _⟩ => ⟨S1x256, .f32⟩
  | .hbm, ⟨41, _⟩ => ⟨S1x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x256, .f32⟩
  | .hbm, ⟨57, _⟩ => ⟨S1x256x256, .f32⟩
  | .hbm, ⟨58, _⟩ => ⟨S256x256, .f32⟩
  | .hbm, ⟨59, _⟩ => ⟨S1x256, .f32⟩
  | .hbm, ⟨60, _⟩ => ⟨S256, .f32⟩
  | .hbm, ⟨61, _⟩ => ⟨S1x256x256, .f32⟩
  | .hbm, ⟨62, _⟩ => ⟨S256x256, .f32⟩
  | .hbm, ⟨63, _⟩ => ⟨S1x256, .f32⟩
  | .hbm, ⟨64, _⟩ => ⟨S256, .f32⟩
  | .hbm, ⟨65, _⟩ => ⟨S1x256, .f32⟩
  | .hbm, ⟨66, _⟩ => ⟨S1x256, .f32⟩
  | .hbm, ⟨67, _⟩ => ⟨S50000x256, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x256, .f32⟩
  | .hbm, ⟨77, _⟩ => ⟨S_, .f32⟩
  | .hbm, ⟨78, _⟩ => ⟨S50000x256, .f32⟩
  | .hbm, ⟨79, _⟩ => ⟨S800000x1, .i32⟩
  | .hbm, ⟨80, _⟩ => ⟨S50000x256, .f32⟩
  | .hbm, ⟨81, _⟩ => ⟨S50000x256, .f32⟩
  | .hbm, ⟨82, _⟩ => ⟨S1x256x256, .f32⟩
  | .hbm, ⟨83, _⟩ => ⟨S256x256, .f32⟩
  | .hbm, ⟨84, _⟩ => ⟨S1x256, .f32⟩
  | .hbm, ⟨85, _⟩ => ⟨S256, .f32⟩
  | .hbm, ⟨86, _⟩ => ⟨S1x256x256, .f32⟩
  | .hbm, ⟨87, _⟩ => ⟨S256x256, .f32⟩
  | .hbm, ⟨88, _⟩ => ⟨S1x256, .f32⟩
  | .hbm, ⟨89, _⟩ => ⟨S256, .f32⟩
  | .hbm, ⟨90, _⟩ => ⟨S1x256, .f32⟩
  | .hbm, ⟨91, _⟩ => ⟨S1x256, .f32⟩
  | .hbm, ⟨92, _⟩ => ⟨S50000x256, .f32⟩
  | .hbm, ⟨93, _⟩ => ⟨S1x256, .f32⟩
  | .hbm, ⟨94, _⟩ => ⟨S1x16, .f32⟩
  | .hbm, ⟨95, _⟩ => ⟨S50000x16, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x256, .f32⟩
  | .local _ .vmem, ⟨17, _⟩ => ⟨S1x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x256, .f32⟩
  | .local _ .vmem, ⟨25, _⟩ => ⟨S1x256, .f32⟩
  | .local _ .vmem, ⟨26, _⟩ => ⟨S256x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S1x256, .f32⟩
  | .local _ .vmem, ⟨34, _⟩ => ⟨S256x16, .f32⟩
  | .local _ .vmem, ⟨35, _⟩ => ⟨S1x16, .f32⟩
  | .local _ .vmem, ⟨36, _⟩ => ⟨S2000x16, .f32⟩
  | .local _ .vmem, ⟨37, _⟩ => ⟨S2000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_1 : Ref sig .tc := ⟨.hbm, 43, rfl⟩
abbrev main_v28 : Ref sig .tc := ⟨.hbm, 44, rfl⟩
abbrev main_v29 : Ref sig .tc := ⟨.hbm, 45, rfl⟩
abbrev main_c_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_4 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg5_0 : Ref sig .tc := ⟨.vmem, 36, rfl⟩
abbrev cc4_stg5_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem4_0 : DmaSem sig := 35
abbrev cc4_sem5_0 : DmaSem sig := 36
abbrev cc4_sem5_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x16 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  shapeCasts_S16_S1x16 : S16.ShapeCasts S1x16
  inb_S256x16_S256x16_0_0 : ∀ a, (![0, 0] : Fin 2 → Nat) a + S256x16.size a ≤ S256x16.size a
  h_S256x16 : 0 < S256x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x16_S2000x16_1_0_0_1_n_n_wf : DotDims.WF S2000x256 S256x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x16.size a ≤ S256x16.size a
  hwx4_3 : ∀ i : grid4.Coords, EltTy.bits .f32 = 32 ∨ (Rect.block (s := S256x16) S256x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x16.size a ≤ S50000x16.size a
  hwx4_5 : ∀ i : grid4.Coords, EltTy.bits .f32 = 32 ∨ (Rect.block (s := S50000x16) S2000x16.size (cc4_transform_5 i) (hinb4_5 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x16_S2000x16_1_0_0_1_n_n : DotDims S2000x256 S256x16 S2000x16 where
  lhsContracting := [1]
  rhsContracting := [0]
  lhsNonContracting := [0]
  rhsNonContracting := [1]
  lhsBatch := []
  rhsBatch := []
  wf := dot_S2000x256_S256x16_S2000x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v60) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S256x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S2000x16.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S256x16 : Shape := ⟨2, ![256, 16]⟩
abbrev S16 : Shape := ⟨1, ![16]⟩
abbrev S1x800000 : Shape := ⟨2, ![1, 800000]⟩
abbrev S800000 : Shape := ⟨1, ![800000]⟩
abbrev S50000x256 : Shape := ⟨2, ![50000, 256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩
abbrev S1x256x256 : Shape := ⟨3, ![1, 256, 256]⟩
abbrev S50000x16 : Shape := ⟨2, ![50000, 16]⟩
abbrev S1x16 : Shape := ⟨2, ![1, 16]⟩
abbrev S50000 : Shape := ⟨1, ![50000]⟩
abbrev S50000x1 : Shape := ⟨2, ![50000, 1]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S3x256x256, .f32⟩
  | 5 => ⟨S3x256, .f32⟩
  | 6 => ⟨S3x256x256, .f32⟩
  | 7 => ⟨S3x256, .f32⟩
  | 8 => ⟨S256x256, .f32⟩
  | 9 => ⟨S256, .f32⟩
  | 10 => ⟨S256x16, .f32⟩
  | 11 => ⟨S16, .f32⟩
  | 12 => ⟨S1x800000, .i32⟩
  | 13 => ⟨S800000, .i32⟩
  | 14 => ⟨S1x800000, .i32⟩
  | 15 => ⟨S800000, .i32⟩
  | 16 => ⟨S50000x256, .f32⟩
  | 17 => ⟨S1x256, .f32⟩
  | 18 => ⟨S50000x256, .f32⟩
  | 19 => ⟨S50000x256, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x256, .f32⟩
  | 29 => ⟨S_, .f32⟩
  | 30 => ⟨S50000x256, .f32⟩
  | 31 => ⟨S800000x1, .i32⟩
  | 32 => ⟨S50000x256, .f32⟩
  | 33 => ⟨S50000x256, .f32⟩
  | 34 => ⟨S1x256x256, .f32⟩
  | 35 => ⟨S256x256, .f32⟩
  | 36 => ⟨S50000x256, .f32⟩
  | 37 => ⟨S1x256, .f32⟩
  | 38 => ⟨S256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S1x256x256, .f32⟩
  | 46 => ⟨S256x256, .f32⟩
  | 47 => ⟨S50000x256, .f32⟩
  | 48 => ⟨S1x256, .f32⟩
  | 49 => ⟨S256, .f32⟩
  | 50 => ⟨S1x256, .f32⟩
  | 51 => ⟨S50000x256, .f32⟩
  | 52 => ⟨S50000x256, .f32⟩
  | 53 => ⟨S_, .f32⟩
  | 54 => ⟨S50000x256, .f32⟩
  | 55 => ⟨S50000x256, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x256, .f32⟩
  | 65 => ⟨S_, .f32⟩
  | 66 => ⟨S50000x256, .f32⟩
  | 67 => ⟨S800000x1, .i32⟩
  | 68 => ⟨S50000x256, .f32⟩
  | 69 => ⟨S50000x256, .f32⟩
  | 70 => ⟨S1x256x256, .f32⟩
  | 71 => ⟨S256x256, .f32⟩
  | 72 => ⟨S50000x256, .f32⟩
  | 73 => ⟨S1x256, .f32⟩
  | 74 => ⟨S256, .f32⟩
  | 75 => ⟨S1x256, .f32⟩
  | 76 => ⟨S50000x256, .f32⟩
  | 77 => ⟨S50000x256, .f32⟩
  | 78 => ⟨S_, .f32⟩
  | 79 => ⟨S50000x256, .f32⟩
  | 80 => ⟨S50000x256, .f32⟩
  | 81 => ⟨S1x256x256, .f32⟩
  | 82 => ⟨S256x256, .f32⟩
  | 83 => ⟨S50000x256, .f32⟩
  | 84 => ⟨S1x256, .f32⟩
  | 85 => ⟨S256, .f32⟩
  | 86 => ⟨S1x256, .f32⟩
  | 87 => ⟨S50000x256, .f32⟩
  | 88 => ⟨S50000x256, .f32⟩
  | 89 => ⟨S_, .f32⟩
  | 90 => ⟨S50000x256, .f32⟩
  | 91 => ⟨S50000x256, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S50000x256, .f32⟩
  | 106 => ⟨S1x256x256, .f32⟩
  | 107 => ⟨S256x256, .f32⟩
  | 108 => ⟨S50000x256, .f32⟩
  | 109 => ⟨S1x256, .f32⟩
  | 110 => ⟨S256, .f32⟩
  | 111 => ⟨S1x256, .f32⟩
  | 112 => ⟨S50000x256, .f32⟩
  | 113 => ⟨S50000x256, .f32⟩
  | 114 => ⟨S_, .f32⟩
  | 115 => ⟨S50000x256, .f32⟩
  | 116 => ⟨S50000x256, .f32⟩
  | 117 => ⟨S1x256x256, .f32⟩
  | 118 => ⟨S256x256, .f32⟩
  | 119 => ⟨S50000x256, .f32⟩
  | 120 => ⟨S1x256, .f32⟩
  | 121 => ⟨S256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S50000x16, .f32⟩
  | 8 => ⟨S1x16, .f32⟩
  | 9 => ⟨S50000x16, .f32⟩
  | 10 => ⟨S50000x16, .f32⟩
  | 11 => ⟨S_, .f32⟩
  | 12 => ⟨S50000, .f32⟩
  | 13 => ⟨S_, .f32⟩
  | 14 => ⟨S50000, .f32⟩
  | 15 => ⟨S50000, .f32⟩
  | 16 => ⟨S50000x1, .f32⟩
  | 17 => ⟨S50000x16, .f32⟩
  | 18 => ⟨S50000x16, .f32⟩
  | 19 => ⟨S50000x16, .f32⟩
  | 20 => ⟨S_, .f32⟩
  | 21 => ⟨S50000, .f32⟩
  | 22 => ⟨S50000x1, .f32⟩
  | 23 => ⟨S50000x1, .f32⟩
  | 24 => ⟨S50000x16, .f32⟩
  | 25 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call1_cst : Ref sig .tc := ⟨.hbm, 53, rfl⟩
abbrev main_call1_v0 : Ref sig .tc := ⟨.hbm, 54, rfl⟩
abbrev main_v36 : Ref sig .tc := ⟨.hbm, 55, rfl⟩
abbrev main_c_1 : Ref sig .tc := ⟨.hbm, 56, rfl⟩
abbrev main_v37 : Ref sig .tc := ⟨.hbm, 57, rfl⟩
abbrev main_v38 : Ref sig .tc := ⟨.hbm, 58, rfl⟩
abbrev main_c_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call2_cst : Ref sig .tc := ⟨.hbm, 78, rfl⟩
abbrev main_call2_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call3_cst : Ref sig .tc := ⟨.hbm, 89, rfl⟩
abbrev main_call3_v0 : Ref sig .tc := ⟨.hbm, 90, rfl⟩
abbrev main_v65 : Ref sig .tc := ⟨.hbm, 91, rfl⟩
abbrev main_c_4 : Ref sig .tc := ⟨.hbm, 92, rfl⟩
abbrev main_v66 : Ref sig .tc := ⟨.hbm, 93, rfl⟩
abbrev main_v67 : Ref sig .tc := ⟨.hbm, 94, rfl⟩
abbrev main_c_5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_call4_cst : Ref sig .tc := ⟨.hbm, 114, rfl⟩
abbrev main_call4_v0 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_call5_cst : Ref sig .tc := ⟨.hbm, 125, rfl⟩
abbrev main_call5_v0 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_call6_cst : Ref sig .tc := ⟨.hbm, 132, rfl⟩
abbrev main_call6_v0 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call7_cst : Ref sig .tc := ⟨.hbm, 139, rfl⟩
abbrev main_call7_v0 : Ref sig .tc := ⟨.hbm, 140, rfl⟩
abbrev main_call7_cst_0 : Ref sig .tc := ⟨.hbm, 141, rfl⟩
abbrev main_call7_v1 : Ref sig .tc := ⟨.hbm, 142, rfl⟩
abbrev main_call7_v2 : Ref sig .tc := ⟨.hbm, 143, rfl⟩
abbrev main_call7_v3 : Ref sig .tc := ⟨.hbm, 144, rfl⟩
abbrev main_call7_v4 : Ref sig .tc := ⟨.hbm, 145, rfl⟩
abbrev main_call7_v5 : Ref sig .tc := ⟨.hbm, 146, rfl⟩
abbrev main_call7_v6 : Ref sig .tc := ⟨.hbm, 147, rfl⟩
abbrev main_call7_cst_1 : Ref sig .tc := ⟨.hbm, 148, rfl⟩
abbrev main_call7_v7 : Ref sig .tc := ⟨.hbm, 149, rfl⟩
abbrev main_call7_v8 : Ref sig .tc := ⟨.hbm, 150, rfl⟩
abbrev main_call7_v9 : Ref sig .tc := ⟨.hbm, 151, rfl⟩
abbrev main_call7_v10 : Ref sig .tc := ⟨.hbm, 152, rfl⟩
abbrev main_v104 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x16_S50000x16_1_0_0_1_n_n_wf : DotDims.WF S50000x256 S256x16 S50000x16 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x16_S50000x16_1_0_0_1_n_n : DotDims S50000x256 S256x16 S50000x16 where
  lhsContracting := [1]
  rhsContracting := [0]
  lhsNonContracting := [0]
  rhsNonContracting := [1]
  lhsBatch := []
  rhsBatch := []
  wf := dot_S50000x256_S256x16_S50000x16_1_0_0_1_n_n_wf

class Facts : Prop extends Facts₀ where

variable [Facts]
-- ==== Proof.KernelRun.lean ====
/-
  The program's run with its result arrays named.

  The program is five row-blocked dense stages with stretches of host operations between them.  Its run ends, on every
  core, with every buffer that outlives a stage at the contents the fold through the program gives it: the host
  stretches applied in order, each stage's arrays replaced by what its write-backs leave.  So any property of final
  memories that follows from "every such buffer holds the fold's final contents" holds of every weakly fair execution
  (`run_of`).  Read at the two result buffers — the class log-probabilities and the last layer's node features — this
  names the results; read at the arguments it says they end as launched (`run`).
-/
import proofs.«131892_j35485019799983_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates in a memory where every buffer that outlives a stage holds the final contents
    of the fold through the program; hence in any `Q` that follows from that. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = W10 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := hQ)

/-- The two result buffers end at the fold's final contents, and the arguments end as launched. -/
theorem run : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_v71) = W10 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_of m ρ fun s h c =>
      ⟨h c _ (mem_uc main_v74 (by decide)),
       h c _ (mem_uc main_v71 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩

end Cert.KernelIdeal.Results

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibDenseLayers.lean ====
/-
  The dense pieces of a two-layer graph-convolution encoder and of its edge decoder, as index-by-index functions over
  the extended reals:

  * `project x w` — the feature projection `x · w`: entry `(n, f)` is `∑ k, x (n, k) · w (k, f)`;
  * `addRow a b` — the bias row `b` (shape `[1, N]`) added to every node's feature row;
  * `addRowClamp a b` — the same followed by the clamp at zero, `max (· ) 0`;
  * `rowDots u v` — one number per edge, the dot product `∑ k, u (e, k) · v (e, k)` of its two end points' features.

  The second half shows that the host operations a plain array program uses for these pieces — a `dot_general` with
  ordinary matrix-product dimension numbers, an addition of a twice-broadcast bias vector (clamped or not by a `maximum`
  with a broadcast zero), and a sum over the feature axis of an elementwise product — ARE these functions.  No law of
  arithmetic is needed beyond `0 + s = s`: the same sums and products appear on both sides, in the same order.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«131892_j35485019799983_1_alg».proof.Proof.LibPlainDot

noncomputable section

namespace Cert.Layers

open Idealize.ShloMosaic Idealize.ShloMosaic.ValueIdx

variable {M K N : Nat}

/-- The projection `x · w` of `M` feature rows of length `K` to length `N`. -/
def project (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (i 0) k) * w (ix2 (n1 := N) k (i 1))

/-- The bias row `b` added to every row of `a`. -/
def addRow (a : (⟨2, ![M, N]⟩ : Shape).Idx → EReal) (b : (⟨2, ![1, N]⟩ : Shape).Idx → EReal) :
    (⟨2, ![M, N]⟩ : Shape).Idx → EReal :=
  fun i => a i + b (ix2 (n1 := N) (0 : Fin 1) (i 1))

/-- The bias row added to every row, then the clamp at zero. -/
def addRowClamp (a : (⟨2, ![M, N]⟩ : Shape).Idx → EReal) (b : (⟨2, ![1, N]⟩ : Shape).Idx → EReal) :
    (⟨2, ![M, N]⟩ : Shape).Idx → EReal :=
  fun i => max (a i + b (ix2 (n1 := N) (0 : Fin 1) (i 1))) 0

/-- Row by row, the dot product of `u`'s row with `v`'s. -/
def rowDots (u v : (⟨2, ![M, K]⟩ : Shape).Idx → EReal) : (⟨1, ![M]⟩ : Shape).Idx → EReal :=
  fun i => ∑ k : Fin K, u (ix2 (n0 := M) (i 0) k) * v (ix2 (n0 := M) (i 0) k)

theorem project_apply (x : (⟨2, ![M, K]⟩ : Shape).Idx → EReal) (w : (⟨2, ![K, N]⟩ : Shape).Idx → EReal) (p : Fin M) (q : Fin N) :
    project x w (ix2 p q) = ∑ k : Fin K, x (ix2 p k) * w (ix2 k q) := rfl

/-! ## The host's operations are these functions -/

/-- A host `dot_general` whose dimension numbers are the ordinary matrix product's is the projection. -/
theorem dotGeneral_eq_project (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32) :
    Host.dotGeneral d prec x w = project x w := by
  subst hd
  funext i
  obtain ⟨p, q, rfl⟩ : ∃ (p : Fin M) (q : Fin N), i = ix2 p q := ⟨i 0, i 1, eq_ix2 i⟩
  exact Cert.Lib.dotGeneral_plain_apply prec _ x w p q

/-- A bias vector broadcast to a row and then over all rows, read at `(p, q)`, is its entry `q`; so is the vector
    reshaped to a row and read at `(0, q)`. -/
theorem bias_bcast_apply (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) (p : Fin M) (q : Fin N) :
    broadcastInDim ⟨2, ![M, N]⟩ ![0, 1] h2 (broadcastInDim ⟨2, ![1, N]⟩ ![1] h1 b) (ix2 p q)
      = shapeCast ⟨2, ![1, N]⟩ b hc (ix2 (0 : Fin 1) q) := by
  rw [shapeCast_a_1a_apply b hc (0 : Fin 1) q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- Adding the twice-broadcast bias vector is adding the bias row. -/
theorem addf_bias_eq_addRow (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 b))
      = addRow a (shapeCast ⟨2, ![1, N]⟩ b hc) := by
  funext i
  obtain ⟨p, q, rfl⟩ : ∃ (p : Fin M) (q : Fin N), i = ix2 p q := ⟨i 0, i 1, eq_ix2 i⟩
  show a (ix2 p q) + _ = a (ix2 p q) + shapeCast ⟨2, ![1, N]⟩ b hc (ix2 (0 : Fin 1) q)
  rw [bias_bcast_apply b h1 h2 hc p q]

/-- The clamp by a `maximum` with the broadcast zero constant of the biased features is `addRowClamp`. -/
theorem maximumf_bias_eq_addRowClamp (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = addRowClamp a (shapeCast ⟨2, ![1, N]⟩ b hc) := by
  rw [addf_bias_eq_addRow a b h1 h2 hc]
  funext i
  show max (addRow a _ i) (broadcastInDim ⟨2, ![M, N]⟩ ![] h0 (constant (F := Ideal) ⟨0, ![]⟩ .f32 0x00000000#32) i) = max (addRow a _ i) 0
  rw [broadcastInDim_apply ![] h0 _ i ix0 (fun a => a.elim0)]
  show max _ (Ideal.ofBits .f32 0x00000000#32) = _
  rw [Ideal.ofBits_zero_f32]

end Cert.Layers

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibLogSoftmax.lean ====
/-
  The row-wise log-softmax `z − max z − log ∑ exp (z − max z)` of an `[M, C]` array, in its two spellings, read as ONE
  index-by-index function over the extended reals.

  * In a kernel: a lane `multi_reduction <maximumf>` from −∞, the result cast to a column and broadcast back, a
    subtraction, `exp`, a lane `multi_reduction <add>`, `log` of the column, a second subtraction.
  * On the host: a `reduce` with a `maximum` body from −∞ (and one more `maximum` with a splat −∞, which changes
    nothing), the column forms by `broadcast_in_dim`, a `reduce` with an `add` body from zero.

  Both read, at `(p, q)`, `(z (p, q) − μ) − log ∑ⱼ exp (z (p, j) − μ)` with `μ` the fold of `max` from −∞ over row `p`.
  The only laws used: `max (−∞) y = y` and `0 + s = s`.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«131892_j35485019799983_1_alg».proof.Proof.LibKeepdims

noncomputable section

namespace Cert.Lib

open Idealize.ShloMosaic Idealize.ShloMosaic.ValueIdx

variable {M C : Nat}

/-- The maximum of row `r`, taken from −∞. -/
def rowMax (z : (⟨2, ![M, C]⟩ : Shape).Idx → EReal) (r : Fin M) : EReal :=
  (Finset.univ : Finset (Fin C)).fold max (Ideal.ofBits .f32 0xFF800000#32) (fun j => z (ix2 r j))

/-- Each entry less its row's maximum. -/
def shifted (z : (⟨2, ![M, C]⟩ : Shape).Idx → EReal) : (⟨2, ![M, C]⟩ : Shape).Idx → EReal :=
  fun i => z i - rowMax z (i 0)

/-- The row-wise log-softmax: the shifted entry less the logarithm of the row's sum of exponentials. -/
def logSoftmax (z : (⟨2, ![M, C]⟩ : Shape).Idx → EReal) : (⟨2, ![M, C]⟩ : Shape).Idx → EReal :=
  fun i => shifted z i - Ideal.log (∑ j : Fin C, Ideal.exp (shifted z (ix2 (i 0) j)))

/-- Row `p` with lane `k` put back is the index `(p, k)`. -/
theorem lift_lane (h : (⟨2, ![M, C]⟩ : Shape).Reduces [(1 : Fin 2)] (⟨1, ![M]⟩ : Shape)) (p : Fin M)
    (k : Fin ((⟨2, ![M, C]⟩ : Shape).size 1)) : h.lift (ix1 p) k = ix2 p (⟨k.val, k.isLt⟩ : Fin C) := by
  funext c; apply Fin.ext
  fin_cases c <;> rfl

theorem max_negInf (y : EReal) : max (Ideal.ofBits .f32 0xFF800000#32) y = y := by
  simp [Ideal.ofBits, Ideal.ieee]

/-- The kernel's spelling. -/
theorem kernel_logSoftmax (z : FVec Ideal ⟨2, ![M, C]⟩ .f32)
    (hr : (⟨2, ![M, C]⟩ : Shape).Reduces [(1 : Fin 2)] (⟨1, ![M]⟩ : Shape)) (hφ : FKind.Formats .f32)
    (hmax : (0xFF800000#32 : BitVec 32) = FKind.maximumf.neutral .f32 hφ)
    (hadd : (0x00000000#32 : BitVec 32) = FKind.add.neutral .f32 hφ)
    (hc : (⟨1, ![M]⟩ : Shape).ShapeCasts ⟨2, ![M, 1]⟩) (hb : (⟨2, ![M, 1]⟩ : Shape).Broadcasts ⟨2, ![M, C]⟩) :
    subf (subf z (broadcastTo ⟨2, ![M, C]⟩ (shapeCast ⟨2, ![M, 1]⟩
            (multiReduction .maximumf [(1 : Fin 2)] ⟨1, ![M]⟩ z 0xFF800000#32 hr hφ hmax) hc) hb))
        (broadcastTo ⟨2, ![M, C]⟩ (log (shapeCast ⟨2, ![M, 1]⟩
            (multiReduction .add [(1 : Fin 2)] ⟨1, ![M]⟩
              (exp (subf z (broadcastTo ⟨2, ![M, C]⟩ (shapeCast ⟨2, ![M, 1]⟩
                (multiReduction .maximumf [(1 : Fin 2)] ⟨1, ![M]⟩ z 0xFF800000#32 hr hφ hmax) hc) hb)))
              0x00000000#32 hr hφ hadd) hc)) hb)
      = logSoftmax z := by
  have hmx : ∀ (p : Fin M) (q : Fin C), broadcastTo ⟨2, ![M, C]⟩ (shapeCast ⟨2, ![M, 1]⟩
      (multiReduction .maximumf [(1 : Fin 2)] ⟨1, ![M]⟩ z 0xFF800000#32 hr hφ hmax) hc) hb (ix2 p q) = rowMax z p := by
    intro p q
    rw [Cert.LibKeepdims.broadcastTo_a1_ab_apply _ hb p q, Cert.LibKeepdims.shapeCast_a_a1_apply _ hc p (0 : Fin 1),
      Ideal.multiReduction_maximumf_single z _ hr hφ hmax (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastTo ⟨2, ![M, C]⟩ (shapeCast ⟨2, ![M, 1]⟩
      (multiReduction .maximumf [(1 : Fin 2)] ⟨1, ![M]⟩ z 0xFF800000#32 hr hφ hmax) hc) hb) (ix2 p q) = shifted z (ix2 p q) := by
    intro p q
    show z (ix2 p q) - _ = z (ix2 p q) - rowMax z p
    rw [hmx p q]
  funext i
  obtain ⟨p, q, rfl⟩ : ∃ (p : Fin M) (q : Fin C), i = ix2 p q := ⟨i 0, i 1, eq_ix2 i⟩
  show subf z _ (ix2 p q) - broadcastTo ⟨2, ![M, C]⟩ _ hb (ix2 p q)
    = shifted z (ix2 p q) - Ideal.log (∑ j : Fin C, Ideal.exp (shifted z (ix2 p j)))
  rw [hsh p q, Cert.LibKeepdims.broadcastTo_a1_ab_apply _ hb p q]
  show shifted z (ix2 p q) - Ideal.log (shapeCast ⟨2, ![M, 1]⟩ _ hc (ix2 p (0 : Fin 1))) = _
  rw [Cert.LibKeepdims.shapeCast_a_a1_apply _ hc p (0 : Fin 1), Ideal.multiReduction_add_single _ _ hr hφ hadd (ix1 p)]
  refine congrArg (fun s => shifted z (ix2 p q) - Ideal.log s) (Finset.sum_congr rfl fun k _ => ?_)
  rw [lift_lane hr p k]
  exact congrArg Ideal.exp (hsh p k)

/-- The host's spelling. -/
theorem host_logSoftmax (z : FVec Ideal ⟨2, ![M, C]⟩ .f32)
    (h' : (⟨2, ![M, C]⟩ : Shape).ReducesTo [(1 : Fin 2)] (⟨1, ![M]⟩ : Shape))
    (hr : (⟨2, ![M, C]⟩ : Shape).Reduces [(1 : Fin 2)] (⟨1, ![M]⟩ : Shape)) (hu : 0 < (⟨0, ![]⟩ : Shape).numel)
    (b0 : (⟨0, ![]⟩ : Shape).BroadcastsInDim ⟨1, ![M]⟩ ![])
    (b1 : (⟨1, ![M]⟩ : Shape).BroadcastsInDim ⟨2, ![M, 1]⟩ ![0])
    (b2 : (⟨2, ![M, 1]⟩ : Shape).BroadcastsInDim ⟨2, ![M, C]⟩ ![0, 1]) :
    subf (subf z (broadcastInDim ⟨2, ![M, C]⟩ ![0, 1] b2 (broadcastInDim ⟨2, ![M, 1]⟩ ![0] b1
            (maximumf (broadcastInDim ⟨1, ![M]⟩ ![] b0 (constant (F := Ideal) ⟨0, ![]⟩ .f32 0xFF800000#32))
              (Host.reduce FloatOps.maximumf z (constant (F := Ideal) ⟨0, ![]⟩ .f32 0xFF800000#32) h' hu)))))
        (broadcastInDim ⟨2, ![M, C]⟩ ![0, 1] b2 (Host.log (broadcastInDim ⟨2, ![M, 1]⟩ ![0] b1
            (Host.reduceAdd (Host.exp (subf z (broadcastInDim ⟨2, ![M, C]⟩ ![0, 1] b2 (broadcastInDim ⟨2, ![M, 1]⟩ ![0] b1
              (maximumf (broadcastInDim ⟨1, ![M]⟩ ![] b0 (constant (F := Ideal) ⟨0, ![]⟩ .f32 0xFF800000#32))
                (Host.reduce FloatOps.maximumf z (constant (F := Ideal) ⟨0, ![]⟩ .f32 0xFF800000#32) h' hu))))))
              (constant (F := Ideal) ⟨0, ![]⟩ .f32 0x00000000#32) h' hu))))
      = logSoftmax z := by
  -- a column `[M, 1]` made from a vector `[M]` and broadcast over the lanes reads the vector at the row
  have hcol : ∀ (v : (⟨1, ![M]⟩ : Shape).Idx → EReal) (p : Fin M) (q : Fin C),
      broadcastInDim ⟨2, ![M, C]⟩ ![0, 1] b2 (broadcastInDim ⟨2, ![M, 1]⟩ ![0] b1 v) (ix2 p q) = v (ix1 p) := by
    intro v p q
    rw [broadcastInDim_apply ![0, 1] b2 _ (ix2 p q) (ix2 p (0 : Fin 1)) (fun a => by
      match a with
      | ⟨0, _⟩ =>
        show p.val = if M = 1 then 0 else p.val
        split
        · have := p.isLt; omega
        · rfl
      | ⟨1, _⟩ => rfl)]
    rw [broadcastInDim_apply ![0] b1 v (ix2 p (0 : Fin 1)) (ix1 p) (fun a => by
      match a with
      | ⟨0, _⟩ =>
        show p.val = if M = 1 then 0 else p.val
        split
        · have := p.isLt; omega
        · rfl)]
  have hmx : ∀ (p : Fin M), maximumf (broadcastInDim ⟨1, ![M]⟩ ![] b0 (constant (F := Ideal) ⟨0, ![]⟩ .f32 0xFF800000#32))
      (Host.reduce FloatOps.maximumf z (constant (F := Ideal) ⟨0, ![]⟩ .f32 0xFF800000#32) h' hu) (ix1 p) = rowMax z p := by
    intro p
    show max (broadcastInDim ⟨1, ![M]⟩ ![] b0 (constant (F := Ideal) ⟨0, ![]⟩ .f32 0xFF800000#32) (ix1 p))
      (Host.reduce FloatOps.maximumf z (constant (F := Ideal) ⟨0, ![]⟩ .f32 0xFF800000#32) h' hu (ix1 p)) = _
    rw [broadcastInDim_apply ![] b0 _ (ix1 p) ix0 (fun a => a.elim0)]
    show max (Ideal.ofBits .f32 0xFF800000#32) _ = _
    rw [max_negInf, Host.reduce_eq_fold_single FloatOps.maximumf z _ h' hr hu (ix1 p)]
    exact congrArg (fun f => (Finset.univ : Finset (Fin C)).fold max (Ideal.ofBits .f32 0xFF800000#32) f)
      (funext fun k => congrArg z (lift_lane hr p k))
  have hsh : ∀ (p : Fin M) (q : Fin C), subf z (broadcastInDim ⟨2, ![M, C]⟩ ![0, 1] b2 (broadcastInDim ⟨2, ![M, 1]⟩ ![0] b1
      (maximumf (broadcastInDim ⟨1, ![M]⟩ ![] b0 (constant (F := Ideal) ⟨0, ![]⟩ .f32 0xFF800000#32))
        (Host.reduce FloatOps.maximumf z (constant (F := Ideal) ⟨0, ![]⟩ .f32 0xFF800000#32) h' hu)))) (ix2 p q)
      = shifted z (ix2 p q) := by
    intro p q
    show z (ix2 p q) - _ = z (ix2 p q) - rowMax z p
    rw [hcol _ p q, hmx p]
  funext i
  obtain ⟨p, q, rfl⟩ : ∃ (p : Fin M) (q : Fin C), i = ix2 p q := ⟨i 0, i 1, eq_ix2 i⟩
  show subf z _ (ix2 p q) - _ = shifted z (ix2 p q) - Ideal.log (∑ j : Fin C, Ideal.exp (shifted z (ix2 p j)))
  rw [hsh p q]
  have hlog : ∀ (v : (⟨1, ![M]⟩ : Shape).Idx → EReal),
      broadcastInDim ⟨2, ![M, C]⟩ ![0, 1] b2 (Host.log (F := Ideal) (φ := .f32) (broadcastInDim ⟨2, ![M, 1]⟩ ![0] b1 v)) (ix2 p q)
        = Ideal.log (v (ix1 p)) := by
    intro v
    have e := hcol (fun j => Ideal.log (v j)) p q
    exact e
  rw [hlog]
  show shifted z (ix2 p q) - Ideal.log (Ideal.hostReduceAdd h' _ (Ideal.ofBits .f32 0x00000000#32) (ix1 p)) = _
  rw [Ideal.hostReduceAdd_single h' hr _ _ (ix1 p), Ideal.ofBits_zero_f32, zero_add]
  refine congrArg (fun s => shifted z (ix2 p q) - Ideal.log s) (Finset.sum_congr rfl fun k _ => ?_)
  rw [lift_lane hr p k]
  exact congrArg Ideal.exp (hsh p k)

end Cert.Lib

end
-- ==== Proof.Spec.lean ====
/-
  The network's dense stages as index-by-index functions over the extended reals, for any extents.

  * `linear x w b` — a projection plus a bias row: entry (n, f) is `∑ k, x (n, k) · w (k, f) + b (0, f)`;
  * `mlp z w1 b1 w2 b2` — two such layers, each clamped at zero: the update a graph-isomorphism layer applies to
    a node's aggregated features;
  * `head h pw pb rw rb` — a clamped layer, a projection to the classes and the row-wise log-softmax.

  Every stage is ROW-LOCAL: row `r` of the result depends on row `r` of the first operand only (the weights and the
  bias rows are shared).  The `_rows` lemmas say so: if row `p` of one operand is row `r` of another, the results
  agree on those rows.  That is what lets a row-blocked computation be read as one whole-array function.
-/
import Idealize.ShloMosaic.PureOps.Ideal
import Idealize.ShloMosaic.PureOps.Ideal.Laws
import Idealize.ShloMosaic.Lib.ValueIdx
import proofs.«131892_j35485019799983_1_alg».proof.Proof.LibDenseLayers
import proofs.«131892_j35485019799983_1_alg».proof.Proof.LibLogSoftmax

noncomputable section

namespace Cert.Spec

open Idealize.ShloMosaic Idealize.ShloMosaic.ValueIdx Cert.Layers
open Cert.Lib (rowMax shifted logSoftmax)

variable {M M' K N H C : Nat}

/-- A projection plus a bias row. -/
def linear (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  addRow (project x w) b

/-- Two layers, each a projection plus a bias row clamped at zero. -/
def mlp (z : (⟨2, ![M, K]⟩ : Shape).Idx → EReal) (w1 : (⟨2, ![K, H]⟩ : Shape).Idx → EReal)
    (b1 : (⟨2, ![1, H]⟩ : Shape).Idx → EReal) (w2 : (⟨2, ![H, N]⟩ : Shape).Idx → EReal)
    (b2 : (⟨2, ![1, N]⟩ : Shape).Idx → EReal) : (⟨2, ![M, N]⟩ : Shape).Idx → EReal :=
  addRowClamp (project (addRowClamp (project z w1) b1) w2) b2

/-- The read-out: a clamped layer, the projection to the classes, the row-wise log-softmax. -/
def head (h : (⟨2, ![M, K]⟩ : Shape).Idx → EReal) (pw : (⟨2, ![K, H]⟩ : Shape).Idx → EReal)
    (pb : (⟨2, ![1, H]⟩ : Shape).Idx → EReal) (rw : (⟨2, ![H, C]⟩ : Shape).Idx → EReal)
    (rb : (⟨2, ![1, C]⟩ : Shape).Idx → EReal) : (⟨2, ![M, C]⟩ : Shape).Idx → EReal :=
  logSoftmax (addRow (project (addRowClamp (project h pw) pb) rw) rb)

/-! ## Row-locality -/

theorem project_rows (x' : (⟨2, ![M', K]⟩ : Shape).Idx → EReal) (x : (⟨2, ![M, K]⟩ : Shape).Idx → EReal)
    (w : (⟨2, ![K, N]⟩ : Shape).Idx → EReal) (p : Fin M') (r : Fin M) (h : ∀ k, x' (ix2 p k) = x (ix2 r k)) (q : Fin N) :
    project x' w (ix2 p q) = project x w (ix2 r q) :=
  Finset.sum_congr rfl fun k _ => congrArg (· * w (ix2 k q)) (h k)

theorem addRow_rows (a' : (⟨2, ![M', N]⟩ : Shape).Idx → EReal) (a : (⟨2, ![M, N]⟩ : Shape).Idx → EReal)
    (b : (⟨2, ![1, N]⟩ : Shape).Idx → EReal) (p : Fin M') (r : Fin M) (q : Fin N) (h : a' (ix2 p q) = a (ix2 r q)) :
    addRow a' b (ix2 p q) = addRow a b (ix2 r q) :=
  congrArg (· + b (ix2 (0 : Fin 1) q)) h

theorem addRowClamp_rows (a' : (⟨2, ![M', N]⟩ : Shape).Idx → EReal) (a : (⟨2, ![M, N]⟩ : Shape).Idx → EReal)
    (b : (⟨2, ![1, N]⟩ : Shape).Idx → EReal) (p : Fin M') (r : Fin M) (q : Fin N) (h : a' (ix2 p q) = a (ix2 r q)) :
    addRowClamp a' b (ix2 p q) = addRowClamp a b (ix2 r q) :=
  congrArg (fun v => max (v + b (ix2 (0 : Fin 1) q)) 0) h

theorem linear_rows (x' : (⟨2, ![M', K]⟩ : Shape).Idx → EReal) (x : (⟨2, ![M, K]⟩ : Shape).Idx → EReal)
    (w : (⟨2, ![K, N]⟩ : Shape).Idx → EReal) (b : (⟨2, ![1, N]⟩ : Shape).Idx → EReal) (p : Fin M') (r : Fin M)
    (h : ∀ k, x' (ix2 p k) = x (ix2 r k)) (q : Fin N) : linear x' w b (ix2 p q) = linear x w b (ix2 r q) :=
  addRow_rows _ _ b p r q (project_rows x' x w p r h q)

theorem mlp_rows (z' : (⟨2, ![M', K]⟩ : Shape).Idx → EReal) (z : (⟨2, ![M, K]⟩ : Shape).Idx → EReal)
    (w1 : (⟨2, ![K, H]⟩ : Shape).Idx → EReal) (b1 : (⟨2, ![1, H]⟩ : Shape).Idx → EReal)
    (w2 : (⟨2, ![H, N]⟩ : Shape).Idx → EReal) (b2 : (⟨2, ![1, N]⟩ : Shape).Idx → EReal) (p : Fin M') (r : Fin M)
    (h : ∀ k, z' (ix2 p k) = z (ix2 r k)) (q : Fin N) : mlp z' w1 b1 w2 b2 (ix2 p q) = mlp z w1 b1 w2 b2 (ix2 r q) :=
  addRowClamp_rows _ _ b2 p r q
    (project_rows _ _ w2 p r (fun j => addRowClamp_rows _ _ b1 p r j (project_rows z' z w1 p r h j)) q)

theorem rowMax_rows (z' : (⟨2, ![M', C]⟩ : Shape).Idx → EReal) (z : (⟨2, ![M, C]⟩ : Shape).Idx → EReal) (p : Fin M')
    (r : Fin M) (h : ∀ j, z' (ix2 p j) = z (ix2 r j)) : rowMax z' p = rowMax z r :=
  congrArg (fun f => (Finset.univ : Finset (Fin C)).fold max (Ideal.ofBits .f32 0xFF800000#32) f) (funext h)

theorem shifted_rows (z' : (⟨2, ![M', C]⟩ : Shape).Idx → EReal) (z : (⟨2, ![M, C]⟩ : Shape).Idx → EReal) (p : Fin M')
    (r : Fin M) (h : ∀ j, z' (ix2 p j) = z (ix2 r j)) (q : Fin C) : shifted z' (ix2 p q) = shifted z (ix2 r q) := by
  show z' (ix2 p q) - rowMax z' p = z (ix2 r q) - rowMax z r
  rw [h q, rowMax_rows z' z p r h]

theorem logSoftmax_rows (z' : (⟨2, ![M', C]⟩ : Shape).Idx → EReal) (z : (⟨2, ![M, C]⟩ : Shape).Idx → EReal) (p : Fin M')
    (r : Fin M) (h : ∀ j, z' (ix2 p j) = z (ix2 r j)) (q : Fin C) : logSoftmax z' (ix2 p q) = logSoftmax z (ix2 r q) := by
  show shifted z' (ix2 p q) - Ideal.log (∑ j : Fin C, Ideal.exp (shifted z' (ix2 p j)))
    = shifted z (ix2 r q) - Ideal.log (∑ j : Fin C, Ideal.exp (shifted z (ix2 r j)))
  rw [shifted_rows z' z p r h q]
  exact congrArg (fun s => shifted z (ix2 r q) - Ideal.log s)
    (Finset.sum_congr rfl fun j _ => congrArg Ideal.exp (shifted_rows z' z p r h j))

theorem head_rows (h' : (⟨2, ![M', K]⟩ : Shape).Idx → EReal) (h : (⟨2, ![M, K]⟩ : Shape).Idx → EReal)
    (pw : (⟨2, ![K, H]⟩ : Shape).Idx → EReal) (pb : (⟨2, ![1, H]⟩ : Shape).Idx → EReal)
    (rw : (⟨2, ![H, C]⟩ : Shape).Idx → EReal) (rb : (⟨2, ![1, C]⟩ : Shape).Idx → EReal) (p : Fin M') (r : Fin M)
    (hr : ∀ k, h' (ix2 p k) = h (ix2 r k)) (q : Fin C) : head h' pw pb rw rb (ix2 p q) = head h pw pb rw rb (ix2 r q) :=
  logSoftmax_rows _ _ p r (fun j => addRow_rows _ _ rb p r j
    (project_rows _ _ rw p r (fun i => addRowClamp_rows _ _ pb p r i (project_rows h' h pw p r hr i)) j)) q

end Cert.Spec

end
-- ==== Proof.Net.lean ====
/-
  The whole network as ONE function of the argument arrays, over the extended reals.

  Node features are projected once (`feat0`), then three graph layers each replace a node's features `h` by a two-layer
  clamped update of `h + Σ_{edges into the node} h[source]` (`aggregate`, then `Cert.Spec.mlp`), and the read-out
  is a clamped layer, a projection to the classes and the row-wise log-softmax (`Cert.Spec.head`).

  The aggregation is kept as the host's own operations on whole arrays — the index clean-up (a negative index counts from
  the end), the gather of source rows and the scatter-add into target rows — and is never opened: both programs apply
  exactly these operations to their node features, so equal features give equal aggregates.  The layer weights are the
  slices `l` of the stacked weight arrays; a bias vector enters as a `[1, N]` row.
-/
import proofs.«131892_j35485019799983_1_alg».proof.Proof.Gen.KernelIdeal
import proofs.«131892_j35485019799983_1_alg».proof.Proof.Spec

noncomputable section

namespace Cert.Net

open Cert.KernelIdeal Cert.KernelIdeal.Facts₀ Idealize.ShloMosaic Cert.Spec

/-- The edges' source nodes: row 0 of the edge list. -/
def src (ei : (⟨S2x800000, .i32⟩ : BufTy).Contents (Elt Ideal)) : (⟨S800000, .i32⟩ : BufTy).Contents (Elt Ideal) :=
  shapeCast S800000 (extractStridedSlice S1x800000 ![0, 0] ei slices_S2x800000_S1x800000_0_0) shapeCasts_S1x800000_S800000

/-- The edges' target nodes: row 1 of the edge list. -/
def dst (ei : (⟨S2x800000, .i32⟩ : BufTy).Contents (Elt Ideal)) : (⟨S800000, .i32⟩ : BufTy).Contents (Elt Ideal) :=
  shapeCast S800000 (extractStridedSlice S1x800000 ![1, 0] ei slices_S2x800000_S1x800000_1_0) shapeCasts_S1x800000_S800000

/-- `h + Σ_{edges e with target n} h[source e]`, as the host computes it: sources below zero are shifted by the node
    count, the source rows are gathered, and scatter-added into a zero array at the targets. -/
def aggregate (h : FVec Ideal S50000x256 .f32) (s d : (⟨S800000, .i32⟩ : BufTy).Contents (Elt Ideal)) :
    FVec Ideal S50000x256 .f32 :=
  addf h (Host.scatterAdd scatter_S50000x256_S800000x1_S800000x256_1_0_0_1
    (broadcastInDim S50000x256 ![] bcast_S_S50000x256 (constant S_ .f32 0x00000000#32))
    (broadcastInDim S800000x1 ![0] bcast_S800000_S800000x1_0 d)
    (Host.gather gather_S50000x256_S800000x1_S800000x256_1_0_n_n_0_1_1256 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s))))

/-- Layer `l`'s slice of a stacked `[3, 256, 256]` weight array. -/
def w0 (W : FVec Ideal S3x256x256 .f32) : FVec Ideal S256x256 .f32 :=
  shapeCast S256x256 (extractStridedSlice S1x256x256 ![0, 0, 0] W slices_S3x256x256_S1x256x256_0_0_0) shapeCasts_S1x256x256_S256x256
def w1 (W : FVec Ideal S3x256x256 .f32) : FVec Ideal S256x256 .f32 :=
  shapeCast S256x256 (extractStridedSlice S1x256x256 ![1, 0, 0] W slices_S3x256x256_S1x256x256_1_0_0) shapeCasts_S1x256x256_S256x256
def w2 (W : FVec Ideal S3x256x256 .f32) : FVec Ideal S256x256 .f32 :=
  shapeCast S256x256 (extractStridedSlice S1x256x256 ![2, 0, 0] W slices_S3x256x256_S1x256x256_2_0_0) shapeCasts_S1x256x256_S256x256

/-- Layer `l`'s slice of a stacked `[3, 256]` bias array, as a vector. -/
def v0 (B : FVec Ideal S3x256 .f32) : FVec Ideal S256 .f32 :=
  shapeCast S256 (extractStridedSlice S1x256 ![0, 0] B slices_S3x256_S1x256_0_0) shapeCasts_S1x256_S256
def v1 (B : FVec Ideal S3x256 .f32) : FVec Ideal S256 .f32 :=
  shapeCast S256 (extractStridedSlice S1x256 ![1, 0] B slices_S3x256_S1x256_1_0) shapeCasts_S1x256_S256
def v2 (B : FVec Ideal S3x256 .f32) : FVec Ideal S256 .f32 :=
  shapeCast S256 (extractStridedSlice S1x256 ![2, 0] B slices_S3x256_S1x256_2_0) shapeCasts_S1x256_S256

/-- A bias vector as a `[1, N]` row. -/
def row (b : FVec Ideal S256 .f32) : FVec Ideal S1x256 .f32 := shapeCast S1x256 b shapeCasts_S256_S1x256
def row16 (b : FVec Ideal S16 .f32) : FVec Ideal S1x16 .f32 := shapeCast S1x16 b shapeCasts_S16_S1x16

/-- The projected node features. -/
def feat0 (x : FVec Ideal S50000x128 .f32) (pw : FVec Ideal S128x256 .f32) (pb : FVec Ideal S256 .f32) :
    FVec Ideal S50000x256 .f32 :=
  linear (M := 50000) (K := 128) (N := 256) x pw (row pb)

/-- One graph layer with the given weight slices. -/
def layer (h : FVec Ideal S50000x256 .f32) (ei : (⟨S2x800000, .i32⟩ : BufTy).Contents (Elt Ideal))
    (a1 : FVec Ideal S256x256 .f32) (c1 : FVec Ideal S256 .f32) (a2 : FVec Ideal S256x256 .f32) (c2 : FVec Ideal S256 .f32) :
    FVec Ideal S50000x256 .f32 :=
  mlp (M := 50000) (K := 256) (H := 256) (N := 256) (aggregate h (src ei) (dst ei)) a1 (row c1) a2 (row c2)

/-- The node features after the three graph layers. -/
def feats (x : FVec Ideal S50000x128 .f32) (ei : (⟨S2x800000, .i32⟩ : BufTy).Contents (Elt Ideal))
    (pw : FVec Ideal S128x256 .f32) (pb : FVec Ideal S256 .f32) (W1 : FVec Ideal S3x256x256 .f32) (B1 : FVec Ideal S3x256 .f32)
    (W2 : FVec Ideal S3x256x256 .f32) (B2 : FVec Ideal S3x256 .f32) : FVec Ideal S50000x256 .f32 :=
  layer (layer (layer (feat0 x pw pb) ei (w0 W1) (v0 B1) (w0 W2) (v0 B2)) ei (w1 W1) (v1 B1) (w1 W2) (v1 B2))
    ei (w2 W1) (v2 B1) (w2 W2) (v2 B2)

/-- The class log-probabilities read off node features `h`. -/
def logp (h : FVec Ideal S50000x256 .f32) (qw : FVec Ideal S256x256 .f32) (qb : FVec Ideal S256 .f32)
    (rw : FVec Ideal S256x16 .f32) (rb : FVec Ideal S16 .f32) : FVec Ideal S50000x16 .f32 :=
  head (M := 50000) (K := 256) (H := 256) (C := 16) h qw (row qb) rw (row16 rb)

end Cert.Net

end
-- ==== Proof.Stretch.lean ====
/-
  What each stretch of host operations between two stages computes, from ANY contents `W` of the buffers before it.

  A stretch is a short line of whole-array operations; what a buffer holds after it is the composition of the
  operations that lead to that buffer, applied to what `W` holds at the buffers the stretch only reads — and a buffer
  no operation of the stretch writes holds what it held.  Stated at an arbitrary `W`, so that the contents an earlier
  stage left (a long term) ride through as one variable.
-/
import proofs.«131892_j35485019799983_1_alg».proof.Proof.Gen.KernelIdeal.Launch
import proofs.«131892_j35485019799983_1_alg».proof.Proof.Net
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.ShloMosaic.StableHlo Idealize.SL.Sem

variable (W : Valuation τ sig (Elt Ideal))

/-- The stretch before the pre-projection: the two rows of the edge list as vectors, the first bias as a row. -/
theorem stretch0 :
    StableHlo.after hostOps0 W (Proc.devRef .tc main_v1) = Net.src (W (Proc.devRef .tc main_arg1))
    ∧ StableHlo.after hostOps0 W (Proc.devRef .tc main_v3) = Net.dst (W (Proc.devRef .tc main_arg1))
    ∧ StableHlo.after hostOps0 W (Proc.devRef .tc main_v4) = Net.row (W (Proc.devRef .tc main_arg3))
    ∧ StableHlo.after hostOps0 W (Proc.devRef .tc main_arg0) = W (Proc.devRef .tc main_arg0)
    ∧ StableHlo.after hostOps0 W (Proc.devRef .tc main_arg2) = W (Proc.devRef .tc main_arg2)
    ∧ StableHlo.after hostOps0 W (Proc.devRef .tc main_arg4) = W (Proc.devRef .tc main_arg4)
    ∧ StableHlo.after hostOps0 W (Proc.devRef .tc main_arg5) = W (Proc.devRef .tc main_arg5)
    ∧ StableHlo.after hostOps0 W (Proc.devRef .tc main_arg6) = W (Proc.devRef .tc main_arg6)
    ∧ StableHlo.after hostOps0 W (Proc.devRef .tc main_arg7) = W (Proc.devRef .tc main_arg7)
    ∧ StableHlo.after hostOps0 W (Proc.devRef .tc main_arg8) = W (Proc.devRef .tc main_arg8)
    ∧ StableHlo.after hostOps0 W (Proc.devRef .tc main_arg9) = W (Proc.devRef .tc main_arg9)
    ∧ StableHlo.after hostOps0 W (Proc.devRef .tc main_arg10) = W (Proc.devRef .tc main_arg10)
    ∧ StableHlo.after hostOps0 W (Proc.devRef .tc main_arg11) = W (Proc.devRef .tc main_arg11) := by
  refine ⟨?_, ?_, ?_, ?_, ?_, ?_, ?_, ?_, ?_, ?_, ?_, ?_, ?_⟩ <;> (simp only [hostOps0]; after_results_simp) <;> rfl

/-- The host stretch before graph layer 1, from any contents `W`: the aggregate of the features it finds, layer 1's
    weight slices and bias rows; the edge lists and every argument it leaves alone. -/
theorem stretch1 :
    StableHlo.after hostOps1 W (Proc.devRef .tc main_v16) = Net.aggregate (W (Proc.devRef .tc main_v5)) (W (Proc.devRef .tc main_v1)) (W (Proc.devRef .tc main_v3))
    ∧ StableHlo.after hostOps1 W (Proc.devRef .tc main_v18) = Net.w0 (W (Proc.devRef .tc main_arg4))
    ∧ StableHlo.after hostOps1 W (Proc.devRef .tc main_v25) = Net.row (Net.v0 (W (Proc.devRef .tc main_arg5)))
    ∧ StableHlo.after hostOps1 W (Proc.devRef .tc main_v22) = Net.w0 (W (Proc.devRef .tc main_arg6))
    ∧ StableHlo.after hostOps1 W (Proc.devRef .tc main_v26) = Net.row (Net.v0 (W (Proc.devRef .tc main_arg7)))
    ∧ StableHlo.after hostOps1 W (Proc.devRef .tc main_v1) = W (Proc.devRef .tc main_v1)
    ∧ StableHlo.after hostOps1 W (Proc.devRef .tc main_v3) = W (Proc.devRef .tc main_v3)
    ∧ StableHlo.after hostOps1 W (Proc.devRef .tc main_arg4) = W (Proc.devRef .tc main_arg4)
    ∧ StableHlo.after hostOps1 W (Proc.devRef .tc main_arg5) = W (Proc.devRef .tc main_arg5)
    ∧ StableHlo.after hostOps1 W (Proc.devRef .tc main_arg6) = W (Proc.devRef .tc main_arg6)
    ∧ StableHlo.after hostOps1 W (Proc.devRef .tc main_arg7) = W (Proc.devRef .tc main_arg7)
    ∧ StableHlo.after hostOps1 W (Proc.devRef .tc main_arg8) = W (Proc.devRef .tc main_arg8)
    ∧ StableHlo.after hostOps1 W (Proc.devRef .tc main_arg9) = W (Proc.devRef .tc main_arg9)
    ∧ StableHlo.after hostOps1 W (Proc.devRef .tc main_arg10) = W (Proc.devRef .tc main_arg10)
    ∧ StableHlo.after hostOps1 W (Proc.devRef .tc main_arg11) = W (Proc.devRef .tc main_arg11) := by
  refine ⟨?_, ?_, ?_, ?_, ?_, ?_, ?_, ?_, ?_, ?_, ?_, ?_, ?_, ?_, ?_⟩ <;> (simp only [hostOps1]; after_results_simp) <;> rfl

/-- The host stretch before graph layer 2, from any contents `W`: the aggregate of the features it finds, layer 2's
    weight slices and bias rows; the edge lists and every argument it leaves alone. -/
theorem stretch2 :
    StableHlo.after hostOps2 W (Proc.devRef .tc main_v38) = Net.aggregate (W (Proc.devRef .tc main_v27)) (W (Proc.devRef .tc main_v1)) (W (Proc.devRef .tc main_v3))
    ∧ StableHlo.after hostOps2 W (Proc.devRef .tc main_v40) = Net.w1 (W (Proc.devRef .tc main_arg4))
    ∧ StableHlo.after hostOps2 W (Proc.devRef .tc main_v47) = Net.row (Net.v1 (W (Proc.devRef .tc main_arg5)))
    ∧ StableHlo.after hostOps2 W (Proc.devRef .tc main_v44) = Net.w1 (W (Proc.devRef .tc main_arg6))
    ∧ StableHlo.after hostOps2 W (Proc.devRef .tc main_v48) = Net.row (Net.v1 (W (Proc.devRef .tc main_arg7)))
    ∧ StableHlo.after hostOps2 W (Proc.devRef .tc main_v1) = W (Proc.devRef .tc main_v1)
    ∧ StableHlo.after hostOps2 W (Proc.devRef .tc main_v3) = W (Proc.devRef .tc main_v3)
    ∧ StableHlo.after hostOps2 W (Proc.devRef .tc main_arg4) = W (Proc.devRef .tc main_arg4)
    ∧ StableHlo.after hostOps2 W (Proc.devRef .tc main_arg5) = W (Proc.devRef .tc main_arg5)
    ∧ StableHlo.after hostOps2 W (Proc.devRef .tc main_arg6) = W (Proc.devRef .tc main_arg6)
    ∧ StableHlo.after hostOps2 W (Proc.devRef .tc main_arg7) = W (Proc.devRef .tc main_arg7)
    ∧ StableHlo.after hostOps2 W (Proc.devRef .tc main_arg8) = W (Proc.devRef .tc main_arg8)
    ∧ StableHlo.after hostOps2 W (Proc.devRef .tc main_arg9) = W (Proc.devRef .tc main_arg9)
    ∧ StableHlo.after hostOps2 W (Proc.devRef .tc main_arg10) = W (Proc.devRef .tc main_arg10)
    ∧ StableHlo.after hostOps2 W (Proc.devRef .tc main_arg11) = W (Proc.devRef .tc main_arg11) := by
  refine ⟨?_, ?_, ?_, ?_, ?_, ?_, ?_, ?_, ?_, ?_, ?_, ?_, ?_, ?_, ?_⟩ <;> (simp only [hostOps2]; after_results_simp) <;> rfl

/-- The host stretch before graph layer 3, from any contents `W`: the aggregate of the features it finds, layer 3's
    weight slices and bias rows; the edge lists and every argument it leaves alone. -/
theorem stretch3 :
    StableHlo.after hostOps3 W (Proc.devRef .tc main_v60) = Net.aggregate (W (Proc.devRef .tc main_v49)) (W (Proc.devRef .tc main_v1)) (W (Proc.devRef .tc main_v3))
    ∧ StableHlo.after hostOps3 W (Proc.devRef .tc main_v62) = Net.w2 (W (Proc.devRef .tc main_arg4))
    ∧ StableHlo.after hostOps3 W (Proc.devRef .tc main_v69) = Net.row (Net.v2 (W (Proc.devRef .tc main_arg5)))
    ∧ StableHlo.after hostOps3 W (Proc.devRef .tc main_v66) = Net.w2 (W (Proc.devRef .tc main_arg6))
    ∧ StableHlo.after hostOps3 W (Proc.devRef .tc main_v70) = Net.row (Net.v2 (W (Proc.devRef .tc main_arg7)))
    ∧ StableHlo.after hostOps3 W (Proc.devRef .tc main_v1) = W (Proc.devRef .tc main_v1)
    ∧ StableHlo.after hostOps3 W (Proc.devRef .tc main_v3) = W (Proc.devRef .tc main_v3)
    ∧ StableHlo.after hostOps3 W (Proc.devRef .tc main_arg4) = W (Proc.devRef .tc main_arg4)
    ∧ StableHlo.after hostOps3 W (Proc.devRef .tc main_arg5) = W (Proc.devRef .tc main_arg5)
    ∧ StableHlo.after hostOps3 W (Proc.devRef .tc main_arg6) = W (Proc.devRef .tc main_arg6)
    ∧ StableHlo.after hostOps3 W (Proc.devRef .tc main_arg7) = W (Proc.devRef .tc main_arg7)
    ∧ StableHlo.after hostOps3 W (Proc.devRef .tc main_arg8) = W (Proc.devRef .tc main_arg8)
    ∧ StableHlo.after hostOps3 W (Proc.devRef .tc main_arg9) = W (Proc.devRef .tc main_arg9)
    ∧ StableHlo.after hostOps3 W (Proc.devRef .tc main_arg10) = W (Proc.devRef .tc main_arg10)
    ∧ StableHlo.after hostOps3 W (Proc.devRef .tc main_arg11) = W (Proc.devRef .tc main_arg11) := by
  refine ⟨?_, ?_, ?_, ?_, ?_, ?_, ?_, ?_, ?_, ?_, ?_, ?_, ?_, ?_, ?_⟩ <;> (simp only [hostOps3]; after_results_simp) <;> rfl

/-- The stretch before the read-out: its two bias vectors as rows. -/
theorem stretch4 :
    StableHlo.after hostOps4 W (Proc.devRef .tc main_v72) = Net.row (W (Proc.devRef .tc main_arg9))
    ∧ StableHlo.after hostOps4 W (Proc.devRef .tc main_v73) = Net.row16 (W (Proc.devRef .tc main_arg11))
    ∧ StableHlo.after hostOps4 W (Proc.devRef .tc main_v71) = W (Proc.devRef .tc main_v71)
    ∧ StableHlo.after hostOps4 W (Proc.devRef .tc main_arg8) = W (Proc.devRef .tc main_arg8)
    ∧ StableHlo.after hostOps4 W (Proc.devRef .tc main_arg10) = W (Proc.devRef .tc main_arg10) := by
  refine ⟨?_, ?_, ?_, ?_, ?_⟩ <;> (simp only [hostOps4]; after_results_simp) <;> rfl

end Cert.KernelIdeal.Stretch

end
-- ==== Proof.LibKernelDense.lean ====
/-
  A kernel's dense layer read as a whole-array function over the extended reals.

  Inside a kernel a dense layer is a `tpu.matmul` of the activations with the weights into a zero accumulator, plus
  the bias row `[1, N]` broadcast over the `M` rows, optionally clamped by a `maximum` with a splat zero.  With
  ordinary matrix-product dimension numbers that is `Cert.Layers.addRow (project x w) b`, respectively
  `addRowClamp (project x w) b`: the same sums and products, `0 + s = s` being the only law used (inside the
  matmul's reading).
-/
import Idealize.ShloMosaic.PureOps.Ideal
import Idealize.ShloMosaic.PureOps.Ideal.Laws
import Idealize.ShloMosaic.Lib.ValueIdx
import Idealize.ShloMosaic.Lib.ValueLayout
import proofs.«131892_j35485019799983_1_alg».proof.Proof.LibPlainDot
import proofs.«131892_j35485019799983_1_alg».proof.Proof.LibDenseLayers

noncomputable section

namespace Cert.Lib

open Idealize.ShloMosaic Idealize.ShloMosaic.ValueIdx Cert.Layers

variable {M K N : Nat}

/-- A `tpu.matmul` into the zero accumulator plus the broadcast bias row is the projection plus the bias row. -/
theorem matmul_bias_eq_addRow {φ₁ φ₂ : FTy} (d : DotDims ⟨2, ![M, K]⟩ ⟨2, ![K, N]⟩ ⟨2, ![M, N]⟩) (hd : d = DotDims.plain M K N)
    (prec : Option ContractPrecision) (x : FVec Ideal ⟨2, ![M, K]⟩ φ₁) (w : FVec Ideal ⟨2, ![K, N]⟩ φ₂)
    (b : FVec Ideal ⟨2, ![1, N]⟩ .f32) (hb : (⟨2, ![1, N]⟩ : Shape).Broadcasts ⟨2, ![M, N]⟩) :
    addf (matmul d prec x w (constant ⟨2, ![M, N]⟩ .f32 0x00000000#32)) (broadcastTo ⟨2, ![M, N]⟩ b hb)
      = addRow (project x w) b := by
  subst hd
  funext i
  obtain ⟨p, q, rfl⟩ : ∃ (p : Fin M) (q : Fin N), i = ix2 p q := ⟨i 0, i 1, eq_ix2 i⟩
  show FloatOps.matmul (DotDims.plain M K N) prec x w (constant ⟨2, ![M, N]⟩ .f32 0x00000000#32) (ix2 p q)
      + broadcastTo ⟨2, ![M, N]⟩ b hb (ix2 p q) = (∑ k : Fin K, x (ix2 p k) * w (ix2 k q)) + b (ix2 (0 : Fin 1) q)
  rw [matmul_plain_zero_apply prec x w p q, broadcastTo_1b_ab_apply b hb p q]

/-- The same followed by the clamp at a splat zero is the projection plus the bias row, clamped at zero. -/
theorem matmul_bias_clamp_eq_addRowClamp {φ₁ φ₂ : FTy} (d : DotDims ⟨2, ![M, K]⟩ ⟨2, ![K, N]⟩ ⟨2, ![M, N]⟩)
    (hd : d = DotDims.plain M K N) (prec : Option ContractPrecision) (x : FVec Ideal ⟨2, ![M, K]⟩ φ₁)
    (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec x w (constant ⟨2, ![M, N]⟩ .f32 0x00000000#32)) (broadcastTo ⟨2, ![M, N]⟩ b hb))
        (broadcast ⟨2, ![M, N]⟩ (Scalar.ofBits (F := Ideal) .f32 0x00000000#32))
      = addRowClamp (project x w) b := by
  rw [matmul_bias_eq_addRow d hd prec x w b hb]
  funext i
  show max (addRow (project x w) b i) (Ideal.ofBits .f32 0x00000000#32) = max (addRow (project x w) b i) 0
  rw [Ideal.ofBits_zero_f32]

end Cert.Lib

end
-- ==== Proof.KernelBody.lean ====
/-
  What each stage's body stores, as a function of the blocks it loads, over the extended reals.

  The changes of float format around each matrix product are the identity on the extended reals, and the casts of a
  block to its own shape change nothing; what is left is a matrix product into a zero accumulator plus a broadcast bias
  row, clamped or not — the layers of `Cert.Spec` — and, in the last stage, the row-wise log-softmax in the kernel's
  spelling.
-/
import proofs.«131892_j35485019799983_1_alg».proof.Proof.Gen.KernelIdeal.Skeleton
import proofs.«131892_j35485019799983_1_alg».proof.Proof.Spec
import proofs.«131892_j35485019799983_1_alg».proof.Proof.LibKernelDense
import proofs.«131892_j35485019799983_1_alg».proof.Proof.LibLogSoftmax
import Idealize.ShloMosaic.Lib.Pipeline.Value

noncomputable section

namespace Cert.KernelIdeal.Body

open Cert.KernelIdeal Cert.KernelIdeal.Gen Idealize.ShloMosaic Idealize.ShloMosaic.ValueIdx Cert.Layers Cert.Spec

/-- The pre-projection's stored value is the projection of its loaded rows plus the bias row. -/
theorem pay0_eq (v0 : Vec Ideal S2000x128 .f32) (v2 : Vec Ideal S128x256 .f32) (v5 : Vec Ideal S1x256 .f32) :
    k0_pay1 (F := Ideal) v0 v2 v5 = linear v0 v2 v5 := by
  unfold k0_pay1
  dsimp only
  simp only [shapeCast_self]
  exact Cert.Lib.matmul_bias_eq_addRow _ rfl none _ _ v5 _

/-- Stage 1's stored value is the two clamped layers of its loaded blocks. -/
theorem pay1_eq (v0 : Vec Ideal S2000x256 .f32) (v3 : Vec Ideal S256x256 .f32) (v7 : Vec Ideal S1x256 .f32)
    (v14 : Vec Ideal S256x256 .f32) (v18 : Vec Ideal S1x256 .f32) :
    k1_pay1 (F := Ideal) v0 v3 v7 v14 v18 = mlp v0 v3 v7 v14 v18 := by
  unfold k1_pay1
  dsimp only
  simp only [shapeCast_self]
  have e1 := Cert.Lib.matmul_bias_clamp_eq_addRowClamp dot_S2000x256_S256x256_S2000x256_1_0_0_1_n_n rfl none
    (truncf (F := Ideal) .bf16 v0 bitsLt_bf16_f32) (truncf (F := Ideal) .bf16 v3 bitsLt_bf16_f32) v7 broadcasts_S1x256_S2000x256
  refine (Cert.Lib.matmul_bias_clamp_eq_addRowClamp _ rfl none _ _ v18 _).trans ?_
  exact congrArg (fun a => addRowClamp (project a v14) v18) e1

/-- Stage 2's stored value is the two clamped layers of its loaded blocks. -/
theorem pay2_eq (v0 : Vec Ideal S2000x256 .f32) (v3 : Vec Ideal S256x256 .f32) (v7 : Vec Ideal S1x256 .f32)
    (v14 : Vec Ideal S256x256 .f32) (v18 : Vec Ideal S1x256 .f32) :
    k2_pay1 (F := Ideal) v0 v3 v7 v14 v18 = mlp v0 v3 v7 v14 v18 := by
  unfold k2_pay1
  dsimp only
  simp only [shapeCast_self]
  have e1 := Cert.Lib.matmul_bias_clamp_eq_addRowClamp dot_S2000x256_S256x256_S2000x256_1_0_0_1_n_n rfl none
    (truncf (F := Ideal) .bf16 v0 bitsLt_bf16_f32) (truncf (F := Ideal) .bf16 v3 bitsLt_bf16_f32) v7 broadcasts_S1x256_S2000x256
  refine (Cert.Lib.matmul_bias_clamp_eq_addRowClamp _ rfl none _ _ v18 _).trans ?_
  exact congrArg (fun a => addRowClamp (project a v14) v18) e1

/-- Stage 3's stored value is the two clamped layers of its loaded blocks. -/
theorem pay3_eq (v0 : Vec Ideal S2000x256 .f32) (v3 : Vec Ideal S256x256 .f32) (v7 : Vec Ideal S1x256 .f32)
    (v14 : Vec Ideal S256x256 .f32) (v18 : Vec Ideal S1x256 .f32) :
    k3_pay1 (F := Ideal) v0 v3 v7 v14 v18 = mlp v0 v3 v7 v14 v18 := by
  unfold k3_pay1
  dsimp only
  simp only [shapeCast_self]
  have e1 := Cert.Lib.matmul_bias_clamp_eq_addRowClamp dot_S2000x256_S256x256_S2000x256_1_0_0_1_n_n rfl none
    (truncf (F := Ideal) .bf16 v0 bitsLt_bf16_f32) (truncf (F := Ideal) .bf16 v3 bitsLt_bf16_f32) v7 broadcasts_S1x256_S2000x256
  refine (Cert.Lib.matmul_bias_clamp_eq_addRowClamp _ rfl none _ _ v18 _).trans ?_
  exact congrArg (fun a => addRowClamp (project a v14) v18) e1

/-- The read-out's stored value: a clamped layer, the projection to the classes plus its bias row, and the row-wise
    log-softmax of those logits. -/
theorem pay4_eq (v0 : Vec Ideal S2000x256 .f32) (v3 : Vec Ideal S256x256 .f32) (v6 : Vec Ideal S1x256 .f32)
    (v13 : Vec Ideal S256x16 .f32) (v16 : Vec Ideal S1x16 .f32) :
    k4_pay1 (F := Ideal) v0 v3 v6 v13 v16 = head v0 v3 v6 v13 v16 := by
  unfold k4_pay1
  dsimp only
  simp only [shapeCast_self]
  have e1 := Cert.Lib.matmul_bias_clamp_eq_addRowClamp dot_S2000x256_S256x256_S2000x256_1_0_0_1_n_n rfl none
    (truncf (F := Ideal) .bf16 v0 bitsLt_bf16_f32) (truncf (F := Ideal) .bf16 v3 bitsLt_bf16_f32) v6 broadcasts_S1x256_S2000x256
  refine (Cert.Lib.kernel_logSoftmax _ reduces_S2000x16_S2000 (.inl rfl) rfl rfl shapeCasts_S2000_S2000x1
    broadcasts_S2000x1_S2000x16).trans ?_
  refine congrArg Cert.Lib.logSoftmax ?_
  refine (Cert.Lib.matmul_bias_eq_addRow _ rfl none _ _ v16 _).trans ?_
  exact congrArg (fun a => addRow (project a v13) v16) e1

end Cert.KernelIdeal.Body

end
-- ==== Proof.Blocks0.lean ====
/-
  Stage 0 (the pre-projection) as ONE whole-array function.

  The stage runs over 25 grid points; point `t` loads rows `2000·t … 2000·t + 1999` of its first operand and the whole of
  every other operand (weights and bias rows are not blocked), and writes back rows `2000·t … 2000·t + 1999` of the
  result.  Since the stage's function is row-local, what point `t` writes back is block `t` of that function applied to
  the WHOLE operand arrays; the 25 blocks tile the 50000 rows, so the result array ends holding that function.
  Stated at any contents `V` of the buffers when the stage is entered.
-/
import proofs.«131892_j35485019799983_1_alg».proof.Proof.Gen.KernelIdeal.Frame
import proofs.«131892_j35485019799983_1_alg».proof.Proof.KernelBody
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the first operand and the result move one block of rows per point, the other
    operands stay at block (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The stage's function of the arrays as the stage finds them. -/
def out0 (c : Dev nD) : S50000x256.Idx → EReal :=
  linear (M := 50000) (K := 128) (N := 256) (V c main_arg0) (V c main_arg2) (V c main_v4)

/-- Window 1 is not blocked: at every point its block is the whole array. -/
theorem whole0_1 (c : Dev nD) (t : Fin cfg0.N) : (iblk0 V c 1 t : S128x256.Idx → EReal) = V c main_arg2 := by
  obtain ⟨e00, e01, e10, e11, e20, e21, eo0, eo1⟩ := idx0 t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Window 2 is not blocked: at every point its block is the whole array. -/
theorem whole0_2 (c : Dev nD) (t : Fin cfg0.N) : (iblk0 V c 2 t : S1x256.Idx → EReal) = V c main_v4 := by
  obtain ⟨e00, e01, e10, e11, e20, e21, eo0, eo1⟩ := idx0 t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Row `p` of the first operand's block at point `t` is row `2000·t + p` of the array. -/
theorem rows0 (c : Dev nD) (t : Fin cfg0.N) (p : Fin 2000) (r : Fin 50000) (hr : r.val = t.val * 2000 + p.val) (k : Fin 128) :
    iblk0 V c 0 t (ix2 p k) = V c main_arg0 (ix2 r k) := by
  obtain ⟨e00, e01, e10, e11, e20, e21, eo0, eo1⟩ := idx0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

set_option maxHeartbeats 4000000 in
/-- What point `t` writes back is block `t` of the stage's function of the whole arrays. -/
theorem flushed0 (c : Dev nD) (t : Fin cfg0.N) :
    (dat0 V c).flushed 3 t = ((cfg0.win 3).blk t).view.read (Elt Ideal) (out0 V c) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x256) hz0, View.ld_unit_zero (S := S1x256) hz0]
  rw [Body.pay0_eq]
  obtain ⟨e00, e01, e10, e11, e20, e21, eo0, eo1⟩ := idx0 t
  have hN : cfg0.N = 25 := N_0
  have ht : t.val < 25 := by have h := t.isLt; omega
  funext j
  obtain ⟨p, q, rfl⟩ : ∃ (p : Fin 2000) (q : Fin 256), j = ix2 p q := ⟨j 0, j 1, eq_ix2 j⟩
  have hemb : ((cfg0.win 3).blk t).view.emb (ix2 p q) = ix2 (⟨t.val * 2000 + p.val, by have := p.isLt; omega⟩ : Fin 50000) q := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  show linear (iblk0 V c 0 t) (iblk0 V c 1 t) (iblk0 V c 2 t) (ix2 p q)
    = out0 V c (((cfg0.win 3).blk t).view.emb (ix2 p q))
  rw [hemb, whole0_1 V c t, whole0_2 V c t]
  exact linear_rows (M' := 2000) (M := 50000) (K := 128) (N := 256) (iblk0 V c 0 t) (V c main_arg0) (V c main_arg2) (V c main_v4) p _
    (fun k => rows0 V c t p _ rfl k) q

/-- An index of the result array is in point `t`'s block iff each coordinate is in the block's range on its axis. -/
theorem mem_blk0 (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v5).slice (win0_3.rect t)).set ↔ _
  rw [View.set_slice_whole, Rect.mem_set_unit]
  exact Iff.rfl

/-- Every index of the result array is in the block of the point that owns its row, `row / 2000`. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  have hlt : (i 0).val / 2000 < cfg0.N := by omega
  obtain ⟨e00, e01, e10, e11, e20, e21, eo0, eo1⟩ := idx0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    have : (⟨(i 0).val / 2000, hlt⟩ : Fin cfg0.N).val = (i 0).val / 2000 := rfl
    omega
  | ⟨1, _⟩ =>
    show win0_3.index ⟨(i 0).val / 2000, hlt⟩ (1 : Fin 2) * 256 ≤ (i 1).val
      ∧ (i 1).val < win0_3.index ⟨(i 0).val / 2000, hlt⟩ (1 : Fin 2) * 256 + 256
    omega

/-- THE RESULT ARRAY when the stage ends: the stage's function of the arrays it was entered with. -/
theorem final0 (c : Dev nD) : (dat0 V c).arrAt 3 cfg0.N = out0 V c :=
  (dat0 V c).arrAt_eq_of_cover 3 (out0 V c) (fun t _ => flushed0 V c t) (cover0)

end Cert.KernelIdeal.Blocks

end
-- ==== Proof.Blocks1.lean ====
/-
  Stage 1 (the first graph layer's update) as ONE whole-array function.

  The stage runs over 25 grid points; point `t` loads rows `2000·t … 2000·t + 1999` of its first operand and the whole of
  every other operand (weights and bias rows are not blocked), and writes back rows `2000·t … 2000·t + 1999` of the
  result.  Since the stage's function is row-local, what point `t` writes back is block `t` of that function applied to
  the WHOLE operand arrays; the 25 blocks tile the 50000 rows, so the result array ends holding that function.
  Stated at any contents `V` of the buffers when the stage is entered.
-/
import proofs.«131892_j35485019799983_1_alg».proof.Proof.Gen.KernelIdeal.Frame
import proofs.«131892_j35485019799983_1_alg».proof.Proof.KernelBody
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the first operand and the result move one block of rows per point, the other
    operands stay at block (0, 0). -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- The stage's function of the arrays as the stage finds them. -/
def out1 (c : Dev nD) : S50000x256.Idx → EReal :=
  mlp (M := 50000) (K := 256) (H := 256) (N := 256) (V c main_v16) (V c main_v18) (V c main_v25) (V c main_v22) (V c main_v26)

/-- Window 1 is not blocked: at every point its block is the whole array. -/
theorem whole1_1 (c : Dev nD) (t : Fin cfg1.N) : (iblk1 V c 1 t : S256x256.Idx → EReal) = V c main_v18 := by
  obtain ⟨e00, e01, e10, e11, e20, e21, e30, e31, e40, e41, eo0, eo1⟩ := idx1 t
  funext y
  show V c main_v18 (((cfg1.win 1).blk t).view.emb y) = V c main_v18 y
  refine congrArg (V c main_v18) (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- Window 2 is not blocked: at every point its block is the whole array. -/
theorem whole1_2 (c : Dev nD) (t : Fin cfg1.N) : (iblk1 V c 2 t : S1x256.Idx → EReal) = V c main_v25 := by
  obtain ⟨e00, e01, e10, e11, e20, e21, e30, e31, e40, e41, eo0, eo1⟩ := idx1 t
  funext y
  show V c main_v25 (((cfg1.win 2).blk t).view.emb y) = V c main_v25 y
  refine congrArg (V c main_v25) (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- Window 3 is not blocked: at every point its block is the whole array. -/
theorem whole1_3 (c : Dev nD) (t : Fin cfg1.N) : (iblk1 V c 3 t : S256x256.Idx → EReal) = V c main_v22 := by
  obtain ⟨e00, e01, e10, e11, e20, e21, e30, e31, e40, e41, eo0, eo1⟩ := idx1 t
  funext y
  show V c main_v22 (((cfg1.win 3).blk t).view.emb y) = V c main_v22 y
  refine congrArg (V c main_v22) (funext fun a => Fin.ext ?_)
  match a with
  | ⟨0, _⟩ => show win1_3.index t (0 : Fin 2) * 256 + 1 * (y 0).val = (y 0).val; omega
  | ⟨1, _⟩ => show win1_3.index t (1 : Fin 2) * 256 + 1 * (y 1).val = (y 1).val; omega

/-- Window 4 is not blocked: at every point its block is the whole array. -/
theorem whole1_4 (c : Dev nD) (t : Fin cfg1.N) : (iblk1 V c 4 t : S1x256.Idx → EReal) = V c main_v26 := by
  obtain ⟨e00, e01, e10, e11, e20, e21, e30, e31, e40, e41, eo0, eo1⟩ := idx1 t
  funext y
  show V c main_v26 (((cfg1.win 4).blk t).view.emb y) = V c main_v26 y
  refine congrArg (V c main_v26) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Row `p` of the first operand's block at point `t` is row `2000·t + p` of the array. -/
theorem rows1 (c : Dev nD) (t : Fin cfg1.N) (p : Fin 2000) (r : Fin 50000) (hr : r.val = t.val * 2000 + p.val) (k : Fin 256) :
    iblk1 V c 0 t (ix2 p k) = V c main_v16 (ix2 r k) := by
  obtain ⟨e00, e01, e10, e11, e20, e21, e30, e31, e40, e41, eo0, eo1⟩ := idx1 t
  show V c main_v16 (((cfg1.win 0).blk t).view.emb (ix2 p k)) = V c main_v16 (ix2 r k)
  refine congrArg (V c main_v16) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

set_option maxHeartbeats 4000000 in
/-- What point `t` writes back is block `t` of the stage's function of the whole arrays. -/
theorem flushed1 (c : Dev nD) (t : Fin cfg1.N) :
    (dat1 V c).flushed 5 t = ((cfg1.win 5).blk t).view.read (Elt Ideal) (out1 V c) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S256x256) hz1, View.ld_unit_zero (S := S1x256) hz1]
  rw [Body.pay1_eq]
  obtain ⟨e00, e01, e10, e11, e20, e21, e30, e31, e40, e41, eo0, eo1⟩ := idx1 t
  have hN : cfg1.N = 25 := N_1
  have ht : t.val < 25 := by have h := t.isLt; omega
  funext j
  obtain ⟨p, q, rfl⟩ : ∃ (p : Fin 2000) (q : Fin 256), j = ix2 p q := ⟨j 0, j 1, eq_ix2 j⟩
  have hemb : ((cfg1.win 5).blk t).view.emb (ix2 p q) = ix2 (⟨t.val * 2000 + p.val, by have := p.isLt; omega⟩ : Fin 50000) q := by
    funext a; apply Fin.ext
    match a with
    | ⟨0, _⟩ => show win1_5.index t (0 : Fin 2) * 2000 + 1 * p.val = t.val * 2000 + p.val; omega
    | ⟨1, _⟩ => show win1_5.index t (1 : Fin 2) * 256 + 1 * q.val = q.val; omega
  show mlp (iblk1 V c 0 t) (iblk1 V c 1 t) (iblk1 V c 2 t) (iblk1 V c 3 t) (iblk1 V c 4 t) (ix2 p q)
    = out1 V c (((cfg1.win 5).blk t).view.emb (ix2 p q))
  rw [hemb, whole1_1 V c t, whole1_2 V c t, whole1_3 V c t, whole1_4 V c t]
  exact mlp_rows (M' := 2000) (M := 50000) (K := 256) (H := 256) (N := 256) (iblk1 V c 0 t) (V c main_v16) (V c main_v18) (V c main_v25) (V c main_v22) (V c main_v26) p _
    (fun k => rows1 V c t p _ rfl k) q

/-- An index of the result array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v27).slice (win1_5.rect t)).set ↔ _
  rw [View.set_slice_whole, Rect.mem_set_unit]
  exact Iff.rfl

/-- Every index of the result array is in the block of the point that owns its row, `row / 2000`. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  have hlt : (i 0).val / 2000 < cfg1.N := by omega
  obtain ⟨e00, e01, e10, e11, e20, e21, e30, e31, e40, e41, eo0, eo1⟩ := idx1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    have : (⟨(i 0).val / 2000, hlt⟩ : Fin cfg1.N).val = (i 0).val / 2000 := rfl
    omega
  | ⟨1, _⟩ =>
    show win1_5.index ⟨(i 0).val / 2000, hlt⟩ (1 : Fin 2) * 256 ≤ (i 1).val
      ∧ (i 1).val < win1_5.index ⟨(i 0).val / 2000, hlt⟩ (1 : Fin 2) * 256 + 256
    omega

/-- THE RESULT ARRAY when the stage ends: the stage's function of the arrays it was entered with. -/
theorem final1 (c : Dev nD) : (dat1 V c).arrAt 5 cfg1.N = out1 V c :=
  (dat1 V c).arrAt_eq_of_cover 5 (out1 V c) (fun t _ => flushed1 V c t) (cover1)

end Cert.KernelIdeal.Blocks

end
-- ==== Proof.Blocks2.lean ====
/-
  Stage 2 (the second graph layer's update) as ONE whole-array function.

  The stage runs over 25 grid points; point `t` loads rows `2000·t … 2000·t + 1999` of its first operand and the whole of
  every other operand (weights and bias rows are not blocked), and writes back rows `2000·t … 2000·t + 1999` of the
  result.  Since the stage's function is row-local, what point `t` writes back is block `t` of that function applied to
  the WHOLE operand arrays; the 25 blocks tile the 50000 rows, so the result array ends holding that function.
  Stated at any contents `V` of the buffers when the stage is entered.
-/
import proofs.«131892_j35485019799983_1_alg».proof.Proof.Gen.KernelIdeal.Frame
import proofs.«131892_j35485019799983_1_alg».proof.Proof.KernelBody
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the first operand and the result move one block of rows per point, the other
    operands stay at block (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- The stage's function of the arrays as the stage finds them. -/
def out2 (c : Dev nD) : S50000x256.Idx → EReal :=
  mlp (M := 50000) (K := 256) (H := 256) (N := 256) (V c main_v38) (V c main_v40) (V c main_v47) (V c main_v44) (V c main_v48)

/-- Window 1 is not blocked: at every point its block is the whole array. -/
theorem whole2_1 (c : Dev nD) (t : Fin cfg2.N) : (iblk2 V c 1 t : S256x256.Idx → EReal) = V c main_v40 := by
  obtain ⟨e00, e01, e10, e11, e20, e21, e30, e31, e40, e41, eo0, eo1⟩ := idx2 t
  funext y
  show V c main_v40 (((cfg2.win 1).blk t).view.emb y) = V c main_v40 y
  refine congrArg (V c main_v40) (funext fun a => Fin.ext ?_)
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- Window 2 is not blocked: at every point its block is the whole array. -/
theorem whole2_2 (c : Dev nD) (t : Fin cfg2.N) : (iblk2 V c 2 t : S1x256.Idx → EReal) = V c main_v47 := by
  obtain ⟨e00, e01, e10, e11, e20, e21, e30, e31, e40, e41, eo0, eo1⟩ := idx2 t
  funext y
  show V c main_v47 (((cfg2.win 2).blk t).view.emb y) = V c main_v47 y
  refine congrArg (V c main_v47) (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Window 3 is not blocked: at every point its block is the whole array. -/
theorem whole2_3 (c : Dev nD) (t : Fin cfg2.N) : (iblk2 V c 3 t : S256x256.Idx → EReal) = V c main_v44 := by
  obtain ⟨e00, e01, e10, e11, e20, e21, e30, e31, e40, e41, eo0, eo1⟩ := idx2 t
  funext y
  show V c main_v44 (((cfg2.win 3).blk t).view.emb y) = V c main_v44 y
  refine congrArg (V c main_v44) (funext fun a => Fin.ext ?_)
  match a with
  | ⟨0, _⟩ => show win2_3.index t (0 : Fin 2) * 256 + 1 * (y 0).val = (y 0).val; omega
  | ⟨1, _⟩ => show win2_3.index t (1 : Fin 2) * 256 + 1 * (y 1).val = (y 1).val; omega

/-- Window 4 is not blocked: at every point its block is the whole array. -/
theorem whole2_4 (c : Dev nD) (t : Fin cfg2.N) : (iblk2 V c 4 t : S1x256.Idx → EReal) = V c main_v48 := by
  obtain ⟨e00, e01, e10, e11, e20, e21, e30, e31, e40, e41, eo0, eo1⟩ := idx2 t
  funext y
  show V c main_v48 (((cfg2.win 4).blk t).view.emb y) = V c main_v48 y
  refine congrArg (V c main_v48) (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- Row `p` of the first operand's block at point `t` is row `2000·t + p` of the array. -/
theorem rows2 (c : Dev nD) (t : Fin cfg2.N) (p : Fin 2000) (r : Fin 50000) (hr : r.val = t.val * 2000 + p.val) (k : Fin 256) :
    iblk2 V c 0 t (ix2 p k) = V c main_v38 (ix2 r k) := by
  obtain ⟨e00, e01, e10, e11, e20, e21, e30, e31, e40, e41, eo0, eo1⟩ := idx2 t
  show V c main_v38 (((cfg2.win 0).blk t).view.emb (ix2 p k)) = V c main_v38 (ix2 r k)
  refine congrArg (V c main_v38) (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

set_option maxHeartbeats 4000000 in
/-- What point `t` writes back is block `t` of the stage's function of the whole arrays. -/
theorem flushed2 (c : Dev nD) (t : Fin cfg2.N) :
    (dat2 V c).flushed 5 t = ((cfg2.win 5).blk t).view.read (Elt Ideal) (out2 V c) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S1x256) hz2]
  rw [Body.pay2_eq]
  obtain ⟨e00, e01, e10, e11, e20, e21, e30, e31, e40, e41, eo0, eo1⟩ := idx2 t
  have hN : cfg2.N = 25 := N_2
  have ht : t.val < 25 := by have h := t.isLt; omega
  funext j
  obtain ⟨p, q, rfl⟩ : ∃ (p : Fin 2000) (q : Fin 256), j = ix2 p q := ⟨j 0, j 1, eq_ix2 j⟩
  have hemb : ((cfg2.win 5).blk t).view.emb (ix2 p q) = ix2 (⟨t.val * 2000 + p.val, by have := p.isLt; omega⟩ : Fin 50000) q := by
    funext a; apply Fin.ext
    match a with
    | ⟨0, _⟩ => show win2_5.index t (0 : Fin 2) * 2000 + 1 * p.val = t.val * 2000 + p.val; omega
    | ⟨1, _⟩ => show win2_5.index t (1 : Fin 2) * 256 + 1 * q.val = q.val; omega
  show mlp (iblk2 V c 0 t) (iblk2 V c 1 t) (iblk2 V c 2 t) (iblk2 V c 3 t) (iblk2 V c 4 t) (ix2 p q)
    = out2 V c (((cfg2.win 5).blk t).view.emb (ix2 p q))
  rw [hemb, whole2_1 V c t, whole2_2 V c t, whole2_3 V c t, whole2_4 V c t]
  exact mlp_rows (M' := 2000) (M := 50000) (K := 256) (H := 256) (N := 256) (iblk2 V c 0 t) (V c main_v38) (V c main_v40) (V c main_v47) (V c main_v44) (V c main_v48) p _
    (fun k => rows2 V c t p _ rfl k) q

/-- An index of the result array is in point `t`'s block iff each coordinate is in the block's range on its axis. -/
theorem mem_blk2 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v49).slice (win2_5.rect t)).set ↔ _
  rw [View.set_slice_whole, Rect.mem_set_unit]
  exact Iff.rfl

/-- Every index of the result array is in the block of the point that owns its row, `row / 2000`. -/
theorem cover2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  have hlt : (i 0).val / 2000 < cfg2.N := by omega
  obtain ⟨e00, e01, e10, e11, e20, e21, e30, e31, e40, e41, eo0, eo1⟩ := idx2 ⟨(i 0).val / 2000, hlt⟩
  refine ⟨⟨(i 0).val / 2000, hlt⟩, flush2_5 _, ?_⟩
  rw [mem_blk2]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    have : (⟨(i 0).val / 2000, hlt⟩ : Fin cfg2.N).val = (i 0).val / 2000 := rfl
    omega
  | ⟨1, _⟩ =>
    show win2_5.index ⟨(i 0).val / 2000, hlt⟩ (1 : Fin 2) * 256 ≤ (i 1).val
      ∧ (i 1).val < win2_5.index ⟨(i 0).val / 2000, hlt⟩ (1 : Fin 2) * 256 + 256
    omega

/-- THE RESULT ARRAY when the stage ends: the stage's function of the arrays it was entered with. -/
theorem final2 (c : Dev nD) : (dat2 V c).arrAt 5 cfg2.N = out2 V c :=
  (dat2 V c).arrAt_eq_of_cover 5 (out2 V c) (fun t _ => flushed2 V c t) (cover2)

end Cert.KernelIdeal.Blocks

end
-- ==== Proof.Blocks3.lean ====
/-
  Stage 3 (the third graph layer's update) as ONE whole-array function.

  The stage runs over 25 grid points; point `t` loads rows `2000·t … 2000·t + 1999` of its first operand and the whole of
  every other operand (weights and bias rows are not blocked), and writes back rows `2000·t … 2000·t + 1999` of the
  result.  Since the stage's function is row-local, what point `t` writes back is block `t` of that function applied to
  the WHOLE operand arrays; the 25 blocks tile the 50000 rows, so the result array ends holding that function.
  Stated at any contents `V` of the buffers when the stage is entered.
-/
import proofs.«131892_j35485019799983_1_alg».proof.Proof.Gen.KernelIdeal.Frame
import proofs.«131892_j35485019799983_1_alg».proof.Proof.KernelBody
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

/-- The printed index maps over the grid: the first operand and the result move one block of rows per point, the other
    operands stay at block (0, 0). -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- The stage's function of the arrays as the stage finds them. -/
def out3 (c : Dev nD) : S50000x256.Idx → EReal :=
  mlp (M := 50000) (K := 256) (H := 256) (N := 256) (V c main_v60) (V c main_v62) (V c main_v69) (V c main_v66) (V c main_v70)

/-- Window 1 is not blocked: at every point its block is the whole array. -/
theorem whole3_1 (c : Dev nD) (t : Fin cfg3.N) : (iblk3 V c 1 t : S256x256.Idx → EReal) = V c main_v62 := by
  obtain ⟨e00, e01, e10, e11, e20, e21, e30, e31, e40, e41, eo0, eo1⟩ := idx3 t
  funext y
  show V c main_v62 (((cfg3.win 1).blk t).view.emb y) = V c main_v62 y
  refine congrArg (V c main_v62) (funext fun a => Fin.ext ?_)
  match a with
  | ⟨0, _⟩ => show win3_1.index t (0 : Fin 2) * 256 + 1 * (y 0).val = (y 0).val; omega
  | ⟨1, _⟩ => show win3_1.index t (1 : Fin 2) * 256 + 1 * (y 1).val = (y 1).val; omega

/-- Window 2 is not blocked: at every point its block is the whole array. -/
theorem whole3_2 (c : Dev nD) (t : Fin cfg3.N) : (iblk3 V c 2 t : S1x256.Idx → EReal) = V c main_v69 := by
  obtain ⟨e00, e01, e10, e11, e20, e21, e30, e31, e40, e41, eo0, eo1⟩ := idx3 t
  funext y
  show V c main_v69 (((cfg3.win 2).blk t).view.emb y) = V c main_v69 y
  refine congrArg (V c main_v69) (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- Window 3 is not blocked: at every point its block is the whole array. -/
theorem whole3_3 (c : Dev nD) (t : Fin cfg3.N) : (iblk3 V c 3 t : S256x256.Idx → EReal) = V c main_v66 := by
  obtain ⟨e00, e01, e10, e11, e20, e21, e30, e31, e40, e41, eo0, eo1⟩ := idx3 t
  funext y
  show V c main_v66 (((cfg3.win 3).blk t).view.emb y) = V c main_v66 y
  refine congrArg (V c main_v66) (funext fun a => Fin.ext ?_)
  match a with
  | ⟨0, _⟩ => show win3_3.index t (0 : Fin 2) * 256 + 1 * (y 0).val = (y 0).val; omega
  | ⟨1, _⟩ => show win3_3.index t (1 : Fin 2) * 256 + 1 * (y 1).val = (y 1).val; omega

/-- Window 4 is not blocked: at every point its block is the whole array. -/
theorem whole3_4 (c : Dev nD) (t : Fin cfg3.N) : (iblk3 V c 4 t : S1x256.Idx → EReal) = V c main_v70 := by
  obtain ⟨e00, e01, e10, e11, e20, e21, e30, e31, e40, e41, eo0, eo1⟩ := idx3 t
  funext y
  show V c main_v70 (((cfg3.win 4).blk t).view.emb y) = V c main_v70 y
  refine congrArg (V c main_v70) (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- Row `p` of the first operand's block at point `t` is row `2000·t + p` of the array. -/
theorem rows3 (c : Dev nD) (t : Fin cfg3.N) (p : Fin 2000) (r : Fin 50000) (hr : r.val = t.val * 2000 + p.val) (k : Fin 256) :
    iblk3 V c 0 t (ix2 p k) = V c main_v60 (ix2 r k) := by
  obtain ⟨e00, e01, e10, e11, e20, e21, e30, e31, e40, e41, eo0, eo1⟩ := idx3 t
  show V c main_v60 (((cfg3.win 0).blk t).view.emb (ix2 p k)) = V c main_v60 (ix2 r k)
  refine congrArg (V c main_v60) (funext fun a => Fin.ext ?_)
  match a with
  | ⟨0, _⟩ => show win3_0.index t (0 : Fin 2) * 2000 + 1 * p.val = r.val; omega
  | ⟨1, _⟩ => show win3_0.index t (1 : Fin 2) * 256 + 1 * k.val = k.val; omega

set_option maxHeartbeats 4000000 in
/-- What point `t` writes back is block `t` of the stage's function of the whole arrays. -/
theorem flushed3 (c : Dev nD) (t : Fin cfg3.N) :
    (dat3 V c).flushed 5 t = ((cfg3.win 5).blk t).view.read (Elt Ideal) (out3 V c) := by
  show (cfg3.win 5).cut (grid3.coords t) ((dat3 V c).after 5 t) = _
  rw [after3_5]
  unfold out3_5
  rw [View.canon_unit_zero hz3]
  simp only [View.ld_unit_zero (S := S2000x256) hz3, View.ld_unit_zero (S := S256x256) hz3, View.ld_unit_zero (S := S1x256) hz3]
  rw [Body.pay3_eq]
  obtain ⟨e00, e01, e10, e11, e20, e21, e30, e31, e40, e41, eo0, eo1⟩ := idx3 t
  have hN : cfg3.N = 25 := N_3
  have ht : t.val < 25 := by have h := t.isLt; omega
  funext j
  obtain ⟨p, q, rfl⟩ : ∃ (p : Fin 2000) (q : Fin 256), j = ix2 p q := ⟨j 0, j 1, eq_ix2 j⟩
  have hemb : ((cfg3.win 5).blk t).view.emb (ix2 p q) = ix2 (⟨t.val * 2000 + p.val, by have := p.isLt; omega⟩ : Fin 50000) q := by
    funext a; apply Fin.ext
    match a with
    | ⟨0, _⟩ => show win3_5.index t (0 : Fin 2) * 2000 + 1 * p.val = t.val * 2000 + p.val; omega
    | ⟨1, _⟩ => show win3_5.index t (1 : Fin 2) * 256 + 1 * q.val = q.val; omega
  show mlp (iblk3 V c 0 t) (iblk3 V c 1 t) (iblk3 V c 2 t) (iblk3 V c 3 t) (iblk3 V c 4 t) (ix2 p q)
    = out3 V c (((cfg3.win 5).blk t).view.emb (ix2 p q))
  rw [hemb, whole3_1 V c t, whole3_2 V c t, whole3_3 V c t, whole3_4 V c t]
  exact mlp_rows (M' := 2000) (M := 50000) (K := 256) (H := 256) (N := 256) (iblk3 V c 0 t) (V c main_v60) (V c main_v62) (V c main_v69) (V c main_v66) (V c main_v70) p _
    (fun k => rows3 V c t p _ rfl k) q

/-- An index of the result array is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val
      ∧ (i a).val < win3_5.index t a * S2000x256.size a + S2000x256.size a := by
  show i ∈ ((View.whole main_v71).slice (win3_5.rect t)).set ↔ _
  rw [View.set_slice_whole, Rect.mem_set_unit]
  exact Iff.rfl

/-- Every index of the result array is in the block of the point that owns its row, `row / 2000`. -/
theorem cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 25 := N_3
  have hlt : (i 0).val / 2000 < cfg3.N := by omega
  obtain ⟨e00, e01, e10, e11, e20, e21, e30, e31, e40, e41, eo0, eo1⟩ := idx3 ⟨(i 0).val / 2000, hlt⟩
  refine ⟨⟨(i 0).val / 2000, hlt⟩, flush3_5 _, ?_⟩
  rw [mem_blk3]
  intro a
  match a with
  | ⟨0, _⟩ =>
    show win3_5.index ⟨(i 0).val / 2000, hlt⟩ (0 : Fin 2) * 2000 ≤ (i 0).val
      ∧ (i 0).val < win3_5.index ⟨(i 0).val / 2000, hlt⟩ (0 : Fin 2) * 2000 + 2000
    have : (⟨(i 0).val / 2000, hlt⟩ : Fin cfg3.N).val = (i 0).val / 2000 := rfl
    omega
  | ⟨1, _⟩ =>
    show win3_5.index ⟨(i 0).val / 2000, hlt⟩ (1 : Fin 2) * 256 ≤ (i 1).val
      ∧ (i 1).val < win3_5.index ⟨(i 0).val / 2000, hlt⟩ (1 : Fin 2) * 256 + 256
    omega

/-- THE RESULT ARRAY when the stage ends: the stage's function of the arrays it was entered with. -/
theorem final3 (c : Dev nD) : (dat3 V c).arrAt 5 cfg3.N = out3 V c :=
  (dat3 V c).arrAt_eq_of_cover 5 (out3 V c) (fun t _ => flushed3 V c t) (cover3)

end Cert.KernelIdeal.Blocks

end
-- ==== Proof.Blocks4.lean ====
/-
  Stage 4 (the read-out) as ONE whole-array function.

  The stage runs over 25 grid points; point `t` loads rows `2000·t … 2000·t + 1999` of its first operand and the whole of
  every other operand (weights and bias rows are not blocked), and writes back rows `2000·t … 2000·t + 1999` of the
  result.  Since the stage's function is row-local, what point `t` writes back is block `t` of that function applied to
  the WHOLE operand arrays; the 25 blocks tile the 50000 rows, so the result array ends holding that function.
  Stated at any contents `V` of the buffers when the stage is entered.
-/
import proofs.«131892_j35485019799983_1_alg».proof.Proof.Gen.KernelIdeal.Frame
import proofs.«131892_j35485019799983_1_alg».proof.Proof.KernelBody
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz4 : (![0, 0] : Fin 2 → Nat) = fun _ => 0 := funext fun a => by fin_cases a <;> rfl

/-- The printed index maps over the grid: the first operand and the result move one block of rows per point, the other
    operands stay at block (0, 0). -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- The stage's function of the arrays as the stage finds them. -/
def out4 (c : Dev nD) : S50000x16.Idx → EReal :=
  head (M := 50000) (K := 256) (H := 256) (C := 16) (V c main_v71) (V c main_arg8) (V c main_v72) (V c main_arg10) (V c main_v73)

/-- Window 1 is not blocked: at every point its block is the whole array. -/
theorem whole4_1 (c : Dev nD) (t : Fin cfg4.N) : (iblk4 V c 1 t : S256x256.Idx → EReal) = V c main_arg8 := by
  obtain ⟨e00, e01, e10, e11, e20, e21, e30, e31, e40, e41, eo0, eo1⟩ := idx4 t
  funext y
  show V c main_arg8 (((cfg4.win 1).blk t).view.emb y) = V c main_arg8 y
  refine congrArg (V c main_arg8) (funext fun a => Fin.ext ?_)
  match a with
  | ⟨0, _⟩ => show win4_1.index t (0 : Fin 2) * 256 + 1 * (y 0).val = (y 0).val; omega
  | ⟨1, _⟩ => show win4_1.index t (1 : Fin 2) * 256 + 1 * (y 1).val = (y 1).val; omega

/-- Window 2 is not blocked: at every point its block is the whole array. -/
theorem whole4_2 (c : Dev nD) (t : Fin cfg4.N) : (iblk4 V c 2 t : S1x256.Idx → EReal) = V c main_v72 := by
  obtain ⟨e00, e01, e10, e11, e20, e21, e30, e31, e40, e41, eo0, eo1⟩ := idx4 t
  funext y
  show V c main_v72 (((cfg4.win 2).blk t).view.emb y) = V c main_v72 y
  refine congrArg (V c main_v72) (funext fun a => Fin.ext ?_)
  match a with
  | ⟨0, _⟩ => show win4_2.index t (0 : Fin 2) * 1 + 1 * (y 0).val = (y 0).val; omega
  | ⟨1, _⟩ => show win4_2.index t (1 : Fin 2) * 256 + 1 * (y 1).val = (y 1).val; omega

/-- Window 3 is not blocked: at every point its block is the whole array. -/
theorem whole4_3 (c : Dev nD) (t : Fin cfg4.N) : (iblk4 V c 3 t : S256x16.Idx → EReal) = V c main_arg10 := by
  obtain ⟨e00, e01, e10, e11, e20, e21, e30, e31, e40, e41, eo0, eo1⟩ := idx4 t
  funext y
  show V c main_arg10 (((cfg4.win 3).blk t).view.emb y) = V c main_arg10 y
  refine congrArg (V c main_arg10) (funext fun a => Fin.ext ?_)
  match a with
  | ⟨0, _⟩ => show win4_3.index t (0 : Fin 2) * 256 + 1 * (y 0).val = (y 0).val; omega
  | ⟨1, _⟩ => show win4_3.index t (1 : Fin 2) * 16 + 1 * (y 1).val = (y 1).val; omega

/-- Window 4 is not blocked: at every point its block is the whole array. -/
theorem whole4_4 (c : Dev nD) (t : Fin cfg4.N) : (iblk4 V c 4 t : S1x16.Idx → EReal) = V c main_v73 := by
  obtain ⟨e00, e01, e10, e11, e20, e21, e30, e31, e40, e41, eo0, eo1⟩ := idx4 t
  funext y
  show V c main_v73 (((cfg4.win 4).blk t).view.emb y) = V c main_v73 y
  refine congrArg (V c main_v73) (funext fun a => Fin.ext ?_)
  match a with
  | ⟨0, _⟩ => show win4_4.index t (0 : Fin 2) * 1 + 1 * (y 0).val = (y 0).val; omega
  | ⟨1, _⟩ => show win4_4.index t (1 : Fin 2) * 16 + 1 * (y 1).val = (y 1).val; omega

/-- Row `p` of the first operand's block at point `t` is row `2000·t + p` of the array. -/
theorem rows4 (c : Dev nD) (t : Fin cfg4.N) (p : Fin 2000) (r : Fin 50000) (hr : r.val = t.val * 2000 + p.val) (k : Fin 256) :
    iblk4 V c 0 t (ix2 p k) = V c main_v71 (ix2 r k) := by
  obtain ⟨e00, e01, e10, e11, e20, e21, e30, e31, e40, e41, eo0, eo1⟩ := idx4 t
  show V c main_v71 (((cfg4.win 0).blk t).view.emb (ix2 p k)) = V c main_v71 (ix2 r k)
  refine congrArg (V c main_v71) (funext fun a => Fin.ext ?_)
  match a with
  | ⟨0, _⟩ => show win4_0.index t (0 : Fin 2) * 2000 + 1 * p.val = r.val; omega
  | ⟨1, _⟩ => show win4_0.index t (1 : Fin 2) * 256 + 1 * k.val = k.val; omega

set_option maxHeartbeats 4000000 in
/-- What point `t` writes back is block `t` of the stage's function of the whole arrays. -/
theorem flushed4 (c : Dev nD) (t : Fin cfg4.N) :
    (dat4 V c).flushed 5 t = ((cfg4.win 5).blk t).view.read (Elt Ideal) (out4 V c) := by
  show (cfg4.win 5).cut (grid4.coords t) ((dat4 V c).after 5 t) = _
  rw [after4_5]
  unfold out4_5
  rw [View.canon_unit_zero hz4]
  simp only [View.ld_unit_zero (S := S2000x256) hz4, View.ld_unit_zero (S := S256x256) hz4, View.ld_unit_zero (S := S1x256) hz4, View.ld_unit_zero (S := S256x16) hz4, View.ld_unit_zero (S := S1x16) hz4]
  rw [Body.pay4_eq]
  obtain ⟨e00, e01, e10, e11, e20, e21, e30, e31, e40, e41, eo0, eo1⟩ := idx4 t
  have hN : cfg4.N = 25 := N_4
  have ht : t.val < 25 := by have h := t.isLt; omega
  funext j
  obtain ⟨p, q, rfl⟩ : ∃ (p : Fin 2000) (q : Fin 16), j = ix2 p q := ⟨j 0, j 1, eq_ix2 j⟩
  have hemb : ((cfg4.win 5).blk t).view.emb (ix2 p q) = ix2 (⟨t.val * 2000 + p.val, by have := p.isLt; omega⟩ : Fin 50000) q := by
    funext a; apply Fin.ext
    match a with
    | ⟨0, _⟩ => show win4_5.index t (0 : Fin 2) * 2000 + 1 * p.val = t.val * 2000 + p.val; omega
    | ⟨1, _⟩ => show win4_5.index t (1 : Fin 2) * 16 + 1 * q.val = q.val; omega
  show head (iblk4 V c 0 t) (iblk4 V c 1 t) (iblk4 V c 2 t) (iblk4 V c 3 t) (iblk4 V c 4 t) (ix2 p q)
    = out4 V c (((cfg4.win 5).blk t).view.emb (ix2 p q))
  rw [hemb, whole4_1 V c t, whole4_2 V c t, whole4_3 V c t, whole4_4 V c t]
  exact head_rows (M' := 2000) (M := 50000) (K := 256) (H := 256) (C := 16) (iblk4 V c 0 t) (V c main_v71) (V c main_arg8) (V c main_v72) (V c main_arg10) (V c main_v73) p _
    (fun k => rows4 V c t p _ rfl k) q

/-- An index of the result array is in point `t`'s block iff each coordinate is in the block's range on its axis. -/
theorem mem_blk4 (t : Fin cfg4.N) (i : S50000x16.Idx) :
    i ∈ ((cfg4.win 5).blk t).view.set ↔ ∀ a : Fin 2, win4_5.index t a * S2000x16.size a ≤ (i a).val
      ∧ (i a).val < win4_5.index t a * S2000x16.size a + S2000x16.size a := by
  show i ∈ ((View.whole main_v74).slice (win4_5.rect t)).set ↔ _
  rw [View.set_slice_whole, Rect.mem_set_unit]
  exact Iff.rfl

/-- Every index of the result array is in the block of the point that owns its row, `row / 2000`. -/
theorem cover4 (i : S50000x16.Idx) :
    ∃ t : Fin cfg4.N, (cfg4.win 5).flush t = true ∧ i ∈ ((cfg4.win 5).blk t).view.set := by
  have hi0 : (i 0).val < 50000 := (i 0).isLt
  have hi1 : (i 1).val < 16 := (i 1).isLt
  have hN : cfg4.N = 25 := N_4
  have hlt : (i 0).val / 2000 < cfg4.N := by omega
  obtain ⟨e00, e01, e10, e11, e20, e21, e30, e31, e40, e41, eo0, eo1⟩ := idx4 ⟨(i 0).val / 2000, hlt⟩
  refine ⟨⟨(i 0).val / 2000, hlt⟩, flush4_5 _, ?_⟩
  rw [mem_blk4]
  intro a
  match a with
  | ⟨0, _⟩ =>
    show win4_5.index ⟨(i 0).val / 2000, hlt⟩ (0 : Fin 2) * 2000 ≤ (i 0).val
      ∧ (i 0).val < win4_5.index ⟨(i 0).val / 2000, hlt⟩ (0 : Fin 2) * 2000 + 2000
    have : (⟨(i 0).val / 2000, hlt⟩ : Fin cfg4.N).val = (i 0).val / 2000 := rfl
    omega
  | ⟨1, _⟩ =>
    show win4_5.index ⟨(i 0).val / 2000, hlt⟩ (1 : Fin 2) * 16 ≤ (i 1).val
      ∧ (i 1).val < win4_5.index ⟨(i 0).val / 2000, hlt⟩ (1 : Fin 2) * 16 + 16
    omega

/-- THE RESULT ARRAY when the stage ends: the stage's function of the arrays it was entered with. -/
theorem final4 (c : Dev nD) : (dat4 V c).arrAt 5 cfg4.N = out4 V c :=
  (dat4 V c).arrAt_eq_of_cover 5 (out4 V c) (fun t _ => flushed4 V c t) (cover4)

end Cert.KernelIdeal.Blocks

end
-- ==== Proof.Chain.lean ====
/-
  The program's two result arrays as the network function of its arguments.

  The fold through the program alternates host stretches and stages.  Two things ride through it unchanged — the two
  rows of the edge list (read off once, before the first stage) and the arguments themselves: no stretch writes them and a
  stage writes its result array only (`Carried`).  Along the way the features buffer of each stage holds the next
  network value: the projected features after the pre-projection, then one more graph layer per stage — the stretch
  before a stage computes the aggregate and the layer's weight slices from what the previous stage left, and the stage
  applies its two clamped layers to them.  The read-out's stage then holds the log-probabilities of the last features.
-/
import proofs.«131892_j35485019799983_1_alg».proof.Proof.Gen.KernelIdeal.Frame
import proofs.«131892_j35485019799983_1_alg».proof.Proof.Stretch
import proofs.«131892_j35485019799983_1_alg».proof.Proof.Blocks0
import proofs.«131892_j35485019799983_1_alg».proof.Proof.Blocks1
import proofs.«131892_j35485019799983_1_alg».proof.Proof.Blocks2
import proofs.«131892_j35485019799983_1_alg».proof.Proof.Blocks3
import proofs.«131892_j35485019799983_1_alg».proof.Proof.Blocks4

set_option maxRecDepth 16384

noncomputable section

namespace Cert.KernelIdeal.Chain

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- What rides through the fold: the edge list's two rows as read off at the start, and the arguments the later stages
    read, as launched. -/
structure Carried (W : Valuation τ sig (Elt Ideal)) : Prop where
  s : W (Proc.devRef .tc main_v1) = Net.src (m ((c : Thread nD τ).loc main_arg1))
  d : W (Proc.devRef .tc main_v3) = Net.dst (m ((c : Thread nD τ).loc main_arg1))
  a4 : W (Proc.devRef .tc main_arg4) = (m ((c : Thread nD τ).loc main_arg4))
  a5 : W (Proc.devRef .tc main_arg5) = (m ((c : Thread nD τ).loc main_arg5))
  a6 : W (Proc.devRef .tc main_arg6) = (m ((c : Thread nD τ).loc main_arg6))
  a7 : W (Proc.devRef .tc main_arg7) = (m ((c : Thread nD τ).loc main_arg7))
  a8 : W (Proc.devRef .tc main_arg8) = (m ((c : Thread nD τ).loc main_arg8))
  a9 : W (Proc.devRef .tc main_arg9) = (m ((c : Thread nD τ).loc main_arg9))
  a10 : W (Proc.devRef .tc main_arg10) = (m ((c : Thread nD τ).loc main_arg10))
  a11 : W (Proc.devRef .tc main_arg11) = (m ((c : Thread nD τ).loc main_arg11))

variable {m c} in
theorem Carried.of_eq {W W' : Valuation τ sig (Elt Ideal)} (h : Carried m c W)
    (e0 : W' (Proc.devRef .tc main_v1) = W (Proc.devRef .tc main_v1))
    (e1 : W' (Proc.devRef .tc main_v3) = W (Proc.devRef .tc main_v3))
    (e2 : W' (Proc.devRef .tc main_arg4) = W (Proc.devRef .tc main_arg4))
    (e3 : W' (Proc.devRef .tc main_arg5) = W (Proc.devRef .tc main_arg5))
    (e4 : W' (Proc.devRef .tc main_arg6) = W (Proc.devRef .tc main_arg6))
    (e5 : W' (Proc.devRef .tc main_arg7) = W (Proc.devRef .tc main_arg7))
    (e6 : W' (Proc.devRef .tc main_arg8) = W (Proc.devRef .tc main_arg8))
    (e7 : W' (Proc.devRef .tc main_arg9) = W (Proc.devRef .tc main_arg9))
    (e8 : W' (Proc.devRef .tc main_arg10) = W (Proc.devRef .tc main_arg10))
    (e9 : W' (Proc.devRef .tc main_arg11) = W (Proc.devRef .tc main_arg11)) : Carried m c W' :=
  ⟨e0.trans h.s, e1.trans h.d, e2.trans h.a4, e3.trans h.a5, e4.trans h.a6, e5.trans h.a7, e6.trans h.a8, e7.trans h.a9, e8.trans h.a10, e9.trans h.a11⟩

/-- After the first stretch: the edge list's rows are read off, the arguments untouched. -/
theorem carried1 : Carried m c (W1 m ρ c) := by
  obtain ⟨hs, hd, -, -, -, k4, k5, k6, k7, k8, k9, k10, k11⟩ := Stretch.stretch0 (W0 m ρ c)
  exact ⟨hs, hd, k4, k5, k6, k7, k8, k9, k10, k11⟩

theorem carried2 : Carried m c (W2 m ρ c) :=
  (carried1 m ρ c).of_eq
    (W2_of_ne m ρ c main_v1 (by decide))
    (W2_of_ne m ρ c main_v3 (by decide))
    (W2_of_ne m ρ c main_arg4 (by decide))
    (W2_of_ne m ρ c main_arg5 (by decide))
    (W2_of_ne m ρ c main_arg6 (by decide))
    (W2_of_ne m ρ c main_arg7 (by decide))
    (W2_of_ne m ρ c main_arg8 (by decide))
    (W2_of_ne m ρ c main_arg9 (by decide))
    (W2_of_ne m ρ c main_arg10 (by decide))
    (W2_of_ne m ρ c main_arg11 (by decide))

/-- After the pre-projection its result array holds the projected features. -/
theorem feats0 : W2 m ρ c (Proc.devRef .tc main_v5) = (Net.feat0 (m ((c : Thread nD τ).loc main_arg0)) (m ((c : Thread nD τ).loc main_arg2)) (m ((c : Thread nD τ).loc main_arg3))) := by
  obtain ⟨-, -, h4, k0, k2, -⟩ := Stretch.stretch0 (W0 m ρ c)
  refine (W2_arr m ρ c 3).trans ((Blocks.final0 (V1 m ρ) c).trans ?_)
  show Cert.Spec.linear (M := 50000) (K := 128) (N := 256) (StableHlo.after hostOps0 (W0 m ρ c) (Proc.devRef .tc main_arg0))
      (StableHlo.after hostOps0 (W0 m ρ c) (Proc.devRef .tc main_arg2)) (StableHlo.after hostOps0 (W0 m ρ c) (Proc.devRef .tc main_v4)) = _
  rw [k0, k2, h4]
  rfl

/-- Entering graph layer 1's stage the edge lists and the arguments are still as launched. -/
theorem carried3 : Carried m c (W3 m ρ c) := by
  obtain ⟨-, -, -, -, -, k1, k3, k4, k5, k6, k7, k8, k9, k10, k11⟩ := Stretch.stretch1 (W2 m ρ c)
  exact (carried2 m ρ c).of_eq k1 k3 k4 k5 k6 k7 k8 k9 k10 k11

/-- Leaving it too: the stage writes its result array only. -/
theorem carried4 : Carried m c (W4 m ρ c) :=
  (carried3 m ρ c).of_eq
    (W4_of_ne m ρ c main_v1 (by decide))
    (W4_of_ne m ρ c main_v3 (by decide))
    (W4_of_ne m ρ c main_arg4 (by decide))
    (W4_of_ne m ρ c main_arg5 (by decide))
    (W4_of_ne m ρ c main_arg6 (by decide))
    (W4_of_ne m ρ c main_arg7 (by decide))
    (W4_of_ne m ρ c main_arg8 (by decide))
    (W4_of_ne m ρ c main_arg9 (by decide))
    (W4_of_ne m ρ c main_arg10 (by decide))
    (W4_of_ne m ρ c main_arg11 (by decide))

/-- After graph layer 1 its result array holds the layer applied to the previous features. -/
theorem feats1 : W4 m ρ c (Proc.devRef .tc main_v27) = (Net.layer (Net.feat0 (m ((c : Thread nD τ).loc main_arg0)) (m ((c : Thread nD τ).loc main_arg2)) (m ((c : Thread nD τ).loc main_arg3))) (m ((c : Thread nD τ).loc main_arg1)) (Net.w0 (m ((c : Thread nD τ).loc main_arg4))) (Net.v0 (m ((c : Thread nD τ).loc main_arg5))) (Net.w0 (m ((c : Thread nD τ).loc main_arg6))) (Net.v0 (m ((c : Thread nD τ).loc main_arg7)))) := by
  obtain ⟨z, wa, ba, wb, bb, -⟩ := Stretch.stretch1 (W2 m ρ c)
  have C := carried2 m ρ c
  refine (W4_arr m ρ c 5).trans ((Blocks.final1 (V3 m ρ) c).trans ?_)
  show Cert.Spec.mlp (M := 50000) (K := 256) (H := 256) (N := 256) (StableHlo.after hostOps1 (W2 m ρ c) (Proc.devRef .tc main_v16))
      (StableHlo.after hostOps1 (W2 m ρ c) (Proc.devRef .tc main_v18)) (StableHlo.after hostOps1 (W2 m ρ c) (Proc.devRef .tc main_v25))
      (StableHlo.after hostOps1 (W2 m ρ c) (Proc.devRef .tc main_v22)) (StableHlo.after hostOps1 (W2 m ρ c) (Proc.devRef .tc main_v26)) = _
  rw [z, wa, ba, wb, bb, C.s, C.d, C.a4, C.a5, C.a6, C.a7, feats0 m ρ c]
  rfl

/-- Entering graph layer 2's stage the edge lists and the arguments are still as launched. -/
theorem carried5 : Carried m c (W5 m ρ c) := by
  obtain ⟨-, -, -, -, -, k1, k3, k4, k5, k6, k7, k8, k9, k10, k11⟩ := Stretch.stretch2 (W4 m ρ c)
  exact (carried4 m ρ c).of_eq k1 k3 k4 k5 k6 k7 k8 k9 k10 k11

/-- Leaving it too: the stage writes its result array only. -/
theorem carried6 : Carried m c (W6 m ρ c) :=
  (carried5 m ρ c).of_eq
    (W6_of_ne m ρ c main_v1 (by decide))
    (W6_of_ne m ρ c main_v3 (by decide))
    (W6_of_ne m ρ c main_arg4 (by decide))
    (W6_of_ne m ρ c main_arg5 (by decide))
    (W6_of_ne m ρ c main_arg6 (by decide))
    (W6_of_ne m ρ c main_arg7 (by decide))
    (W6_of_ne m ρ c main_arg8 (by decide))
    (W6_of_ne m ρ c main_arg9 (by decide))
    (W6_of_ne m ρ c main_arg10 (by decide))
    (W6_of_ne m ρ c main_arg11 (by decide))

/-- After graph layer 2 its result array holds the layer applied to the previous features. -/
theorem feats2 : W6 m ρ c (Proc.devRef .tc main_v49) = (Net.layer (Net.layer (Net.feat0 (m ((c : Thread nD τ).loc main_arg0)) (m ((c : Thread nD τ).loc main_arg2)) (m ((c : Thread nD τ).loc main_arg3))) (m ((c : Thread nD τ).loc main_arg1)) (Net.w0 (m ((c : Thread nD τ).loc main_arg4))) (Net.v0 (m ((c : Thread nD τ).loc main_arg5))) (Net.w0 (m ((c : Thread nD τ).loc main_arg6))) (Net.v0 (m ((c : Thread nD τ).loc main_arg7)))) (m ((c : Thread nD τ).loc main_arg1)) (Net.w1 (m ((c : Thread nD τ).loc main_arg4))) (Net.v1 (m ((c : Thread nD τ).loc main_arg5))) (Net.w1 (m ((c : Thread nD τ).loc main_arg6))) (Net.v1 (m ((c : Thread nD τ).loc main_arg7)))) := by
  obtain ⟨z, wa, ba, wb, bb, -⟩ := Stretch.stretch2 (W4 m ρ c)
  have C := carried4 m ρ c
  refine (W6_arr m ρ c 5).trans ((Blocks.final2 (V5 m ρ) c).trans ?_)
  show Cert.Spec.mlp (M := 50000) (K := 256) (H := 256) (N := 256) (StableHlo.after hostOps2 (W4 m ρ c) (Proc.devRef .tc main_v38))
      (StableHlo.after hostOps2 (W4 m ρ c) (Proc.devRef .tc main_v40)) (StableHlo.after hostOps2 (W4 m ρ c) (Proc.devRef .tc main_v47))
      (StableHlo.after hostOps2 (W4 m ρ c) (Proc.devRef .tc main_v44)) (StableHlo.after hostOps2 (W4 m ρ c) (Proc.devRef .tc main_v48)) = _
  rw [z, wa, ba, wb, bb, C.s, C.d, C.a4, C.a5, C.a6, C.a7, feats1 m ρ c]
  rfl

/-- Entering graph layer 3's stage the edge lists and the arguments are still as launched. -/
theorem carried7 : Carried m c (W7 m ρ c) := by
  obtain ⟨-, -, -, -, -, k1, k3, k4, k5, k6, k7, k8, k9, k10, k11⟩ := Stretch.stretch3 (W6 m ρ c)
  exact (carried6 m ρ c).of_eq k1 k3 k4 k5 k6 k7 k8 k9 k10 k11

/-- Leaving it too: the stage writes its result array only. -/
theorem carried8 : Carried m c (W8 m ρ c) :=
  (carried7 m ρ c).of_eq
    (W8_of_ne m ρ c main_v1 (by decide))
    (W8_of_ne m ρ c main_v3 (by decide))
    (W8_of_ne m ρ c main_arg4 (by decide))
    (W8_of_ne m ρ c main_arg5 (by decide))
    (W8_of_ne m ρ c main_arg6 (by decide))
    (W8_of_ne m ρ c main_arg7 (by decide))
    (W8_of_ne m ρ c main_arg8 (by decide))
    (W8_of_ne m ρ c main_arg9 (by decide))
    (W8_of_ne m ρ c main_arg10 (by decide))
    (W8_of_ne m ρ c main_arg11 (by decide))

/-- After graph layer 3 its result array holds the layer applied to the previous features. -/
theorem feats3 : W8 m ρ c (Proc.devRef .tc main_v71) = (Net.layer (Net.layer (Net.layer (Net.feat0 (m ((c : Thread nD τ).loc main_arg0)) (m ((c : Thread nD τ).loc main_arg2)) (m ((c : Thread nD τ).loc main_arg3))) (m ((c : Thread nD τ).loc main_arg1)) (Net.w0 (m ((c : Thread nD τ).loc main_arg4))) (Net.v0 (m ((c : Thread nD τ).loc main_arg5))) (Net.w0 (m ((c : Thread nD τ).loc main_arg6))) (Net.v0 (m ((c : Thread nD τ).loc main_arg7)))) (m ((c : Thread nD τ).loc main_arg1)) (Net.w1 (m ((c : Thread nD τ).loc main_arg4))) (Net.v1 (m ((c : Thread nD τ).loc main_arg5))) (Net.w1 (m ((c : Thread nD τ).loc main_arg6))) (Net.v1 (m ((c : Thread nD τ).loc main_arg7)))) (m ((c : Thread nD τ).loc main_arg1)) (Net.w2 (m ((c : Thread nD τ).loc main_arg4))) (Net.v2 (m ((c : Thread nD τ).loc main_arg5))) (Net.w2 (m ((c : Thread nD τ).loc main_arg6))) (Net.v2 (m ((c : Thread nD τ).loc main_arg7)))) := by
  obtain ⟨z, wa, ba, wb, bb, -⟩ := Stretch.stretch3 (W6 m ρ c)
  have C := carried6 m ρ c
  refine (W8_arr m ρ c 5).trans ((Blocks.final3 (V7 m ρ) c).trans ?_)
  show Cert.Spec.mlp (M := 50000) (K := 256) (H := 256) (N := 256) (StableHlo.after hostOps3 (W6 m ρ c) (Proc.devRef .tc main_v60))
      (StableHlo.after hostOps3 (W6 m ρ c) (Proc.devRef .tc main_v62)) (StableHlo.after hostOps3 (W6 m ρ c) (Proc.devRef .tc main_v69))
      (StableHlo.after hostOps3 (W6 m ρ c) (Proc.devRef .tc main_v66)) (StableHlo.after hostOps3 (W6 m ρ c) (Proc.devRef .tc main_v70)) = _
  rw [z, wa, ba, wb, bb, C.s, C.d, C.a4, C.a5, C.a6, C.a7, feats2 m ρ c]
  rfl

/-- THE FEATURES RESULT: the buffer the third graph layer wrote is only read afterwards. -/
theorem features : W10 m ρ c (Proc.devRef .tc main_v71)
    = Net.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨-, -, k71, -⟩ := Stretch.stretch4 (W8 m ρ c)
  -- the read-out's stage reads this array through an input window, so it leaves it as it finds it
  exact ((W10_arr m ρ c 0).trans (((dat4 (V9 m ρ) c).arrAt_in 0 rfl _).trans (A_eq4 (V9 m ρ) c 0))).trans
    (k71.trans (feats3 m ρ c))

/-- THE LOG-PROBABILITIES RESULT: the read-out of those features. -/
theorem logProbs : W10 m ρ c (Proc.devRef .tc main_v74)
    = Net.logp (Net.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (m ((c : Thread nD τ).loc main_arg10)) (m ((c : Thread nD τ).loc main_arg11)) := by
  obtain ⟨h72, h73, k71, k8, k10⟩ := Stretch.stretch4 (W8 m ρ c)
  have C := carried8 m ρ c
  refine (W10_arr m ρ c 5).trans ((Blocks.final4 (V9 m ρ) c).trans ?_)
  show Cert.Spec.head (M := 50000) (K := 256) (H := 256) (C := 16) (StableHlo.after hostOps4 (W8 m ρ c) (Proc.devRef .tc main_v71))
      (StableHlo.after hostOps4 (W8 m ρ c) (Proc.devRef .tc main_arg8)) (StableHlo.after hostOps4 (W8 m ρ c) (Proc.devRef .tc main_v72))
      (StableHlo.after hostOps4 (W8 m ρ c) (Proc.devRef .tc main_arg10)) (StableHlo.after hostOps4 (W8 m ρ c) (Proc.devRef .tc main_v73)) = _
  rw [h72, h73, k71, k8, k10, C.a8, C.a9, C.a10, C.a11, feats3 m ρ c]
  rfl

end Cert.KernelIdeal.Chain

end
-- ==== Proof.RefLayers.lean ====
/-
  The reference program's dense stages, in the host's spelling, are the index-by-index functions.

  The reference is one line of whole-array host operations.  Its dense stages — the projection plus bias, the two clamped
  layers of a graph layer, the read-out's logits and the row-wise log-softmax — are named here as whole-array functions
  (`preR`, `convR`, `logitsR`, `lsmR`), and each is the corresponding function of `Cert.Spec` / `Cert.Net`: a
  `dot_general` with matrix-product dimension numbers is the projection, the twice-broadcast bias vector is the bias row,
  `maximum` with a broadcast zero is the clamp, and the host's spelling of the log-softmax is the row-wise log-softmax.
-/
import proofs.«131892_j35485019799983_1_alg».proof.Proof.Gen.ReferenceIdeal
import proofs.«131892_j35485019799983_1_alg».proof.Proof.Net
import proofs.«131892_j35485019799983_1_alg».proof.Proof.LibDenseLayers
import proofs.«131892_j35485019799983_1_alg».proof.Proof.LibLogSoftmax

set_option maxRecDepth 65536

noncomputable section

namespace Cert.ReferenceIdeal.Layers

open Cert.ReferenceIdeal Cert.ReferenceIdeal.Facts₀
open Idealize.ShloMosaic Idealize.ShloMosaic.TcCoe Idealize.SL.Sem Cert.Layers Cert.Spec

/-- The projection of the node features plus its bias, in the host's spelling. -/
def preR (x : FVec Ideal S50000x128 .f32) (w : FVec Ideal S128x256 .f32) (b : FVec Ideal S256 .f32) : FVec Ideal S50000x256 .f32 :=
  addf (Host.dotGeneral dot_S50000x128_S128x256_S50000x256_1_0_0_1_n_n none x w) (broadcastInDim S50000x256 ![0, 1] bcast_S1x256_S50000x256_0_1 (broadcastInDim S1x256 ![1] bcast_S256_S1x256_1 b))

/-- A graph layer's two clamped layers, in the host's spelling. -/
def convR (z : FVec Ideal S50000x256 .f32) (a1 : FVec Ideal S256x256 .f32) (c1 : FVec Ideal S256 .f32)
    (a2 : FVec Ideal S256x256 .f32) (c2 : FVec Ideal S256 .f32) : FVec Ideal S50000x256 .f32 :=
  maximumf (addf (Host.dotGeneral dot_S50000x256_S256x256_S50000x256_1_0_0_1_n_n none
      (maximumf (addf (Host.dotGeneral dot_S50000x256_S256x256_S50000x256_1_0_0_1_n_n none z a1) (broadcastInDim S50000x256 ![0, 1] bcast_S1x256_S50000x256_0_1 (broadcastInDim S1x256 ![1] bcast_S256_S1x256_1 c1))) (broadcastInDim S50000x256 ![] bcast_S_S50000x256 (constant S_ .f32 0x00000000#32))) a2) (broadcastInDim S50000x256 ![0, 1] bcast_S1x256_S50000x256_0_1 (broadcastInDim S1x256 ![1] bcast_S256_S1x256_1 c2))) (broadcastInDim S50000x256 ![] bcast_S_S50000x256 (constant S_ .f32 0x00000000#32))

/-- The read-out's logits, in the host's spelling. -/
def logitsR (h : FVec Ideal S50000x256 .f32) (qw : FVec Ideal S256x256 .f32) (qb : FVec Ideal S256 .f32)
    (rw : FVec Ideal S256x16 .f32) (rb : FVec Ideal S16 .f32) : FVec Ideal S50000x16 .f32 :=
  addf (Host.dotGeneral dot_S50000x256_S256x16_S50000x16_1_0_0_1_n_n none
      (maximumf (addf (Host.dotGeneral dot_S50000x256_S256x256_S50000x256_1_0_0_1_n_n none h qw) (broadcastInDim S50000x256 ![0, 1] bcast_S1x256_S50000x256_0_1 (broadcastInDim S1x256 ![1] bcast_S256_S1x256_1 qb))) (broadcastInDim S50000x256 ![] bcast_S_S50000x256 (constant S_ .f32 0x00000000#32))) rw)
    (broadcastInDim S50000x16 ![0, 1] bcast_S1x16_S50000x16_0_1 (broadcastInDim S1x16 ![1] bcast_S16_S1x16_1 rb))

/-- The row-wise log-softmax, in the host's spelling. -/
def lsmR (z : FVec Ideal S50000x16 .f32) : FVec Ideal S50000x16 .f32 :=
  subf (subf z (broadcastInDim S50000x16 ![0, 1] bcast_S50000x1_S50000x16_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x16_S50000_d1 h_S_))))) (broadcastInDim S50000x16 ![0, 1] bcast_S50000x1_S50000x16_0_1 (Host.log (broadcastInDim S50000x1 ![0] bcast_S50000_S50000x1_0 (Host.reduceAdd (Host.exp (subf z (broadcastInDim S50000x16 ![0, 1] bcast_S50000x1_S50000x16_0_1 (broadcastInDim S50000x1 ![0] bcast_S50000_S50000x1_0 (maximumf (broadcastInDim S50000 ![] bcast_S_S50000 (constant S_ .f32 0xFF800000#32)) (Host.reduce FloatOps.maximumf z (constant S_ .f32 0xFF800000#32) reducesTo_S50000x16_S50000_d1 h_S_)))))) (constant S_ .f32 0x00000000#32) reducesTo_S50000x16_S50000_d1 h_S_))))

/-! ## Each stage is the index-by-index function -/

theorem preR_eq (x : FVec Ideal S50000x128 .f32) (w : FVec Ideal S128x256 .f32) (b : FVec Ideal S256 .f32) :
    preR x w b = Net.feat0 x w b := by
  unfold preR
  rw [addf_bias_eq_addRow _ b _ _ Cert.KernelIdeal.Facts₀.shapeCasts_S256_S1x256, dotGeneral_eq_project dot_S50000x128_S128x256_S50000x256_1_0_0_1_n_n rfl]
  rfl

theorem convR_eq (z : FVec Ideal S50000x256 .f32) (a1 : FVec Ideal S256x256 .f32) (c1 : FVec Ideal S256 .f32)
    (a2 : FVec Ideal S256x256 .f32) (c2 : FVec Ideal S256 .f32) :
    convR z a1 c1 a2 c2 = mlp (M := 50000) (K := 256) (H := 256) (N := 256) z a1 (Net.row c1) a2 (Net.row c2) := by
  unfold convR
  rw [maximumf_bias_eq_addRowClamp _ c2 _ _ _ Cert.KernelIdeal.Facts₀.shapeCasts_S256_S1x256, dotGeneral_eq_project dot_S50000x256_S256x256_S50000x256_1_0_0_1_n_n rfl,
    maximumf_bias_eq_addRowClamp _ c1 _ _ _ Cert.KernelIdeal.Facts₀.shapeCasts_S256_S1x256, dotGeneral_eq_project dot_S50000x256_S256x256_S50000x256_1_0_0_1_n_n rfl]
  rfl

theorem readout_eq (h : FVec Ideal S50000x256 .f32) (qw : FVec Ideal S256x256 .f32) (qb : FVec Ideal S256 .f32)
    (rw : FVec Ideal S256x16 .f32) (rb : FVec Ideal S16 .f32) :
    lsmR (logitsR h qw qb rw rb) = Net.logp h qw qb rw rb := by
  unfold lsmR
  rw [Cert.Lib.host_logSoftmax (M := 50000) (C := 16) _ reducesTo_S50000x16_S50000_d1 (by decide) h_S_ bcast_S_S50000
    bcast_S50000_S50000x1_0 bcast_S50000x1_S50000x16_0_1]
  unfold logitsR
  rw [addf_bias_eq_addRow _ rb _ _ Cert.KernelIdeal.Facts₀.shapeCasts_S16_S1x16, dotGeneral_eq_project dot_S50000x256_S256x16_S50000x16_1_0_0_1_n_n rfl,
    maximumf_bias_eq_addRowClamp _ qb _ _ _ Cert.KernelIdeal.Facts₀.shapeCasts_S256_S1x256, dotGeneral_eq_project dot_S50000x256_S256x256_S50000x256_1_0_0_1_n_n rfl]
  rfl

end Cert.ReferenceIdeal.Layers

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.LibTRefCasts.lean ====
/-
  Typed references and their transports. A module-local function's operations name their buffers as typed references
  (`TRef`): a buffer together with the equation saying its declared type is the value's type, and every operand and result
  passes through the transport along that equation (`ofBuf` going in, `toBuf` coming out). The two transports are inverse
  to each other, for any typed reference whatever: destructure the reference and substitute the equation, and both are
  the identity. Rewriting with these removes every paired transport from a composed term without computing anything.
-/
import Idealize.ShloMosaic.Lib.StableHlo

namespace Cert.Lib

open Idealize.ShloMosaic Idealize.ShloMosaic.StableHlo

/-- Contents carried into a buffer's type and back are the contents. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- Contents carried out of a buffer's type and back are the contents. -/
theorem toBuf_ofBuf {sig : RefSig} {Val : EltTy → Type} {T : BufTy} (x : TRef sig T) (v : x.ref.ty.Contents Val) :
    x.toBuf (x.ofBuf v) = v := by
  obtain ⟨r, h, h1, h2⟩ := x
  subst h
  rfl

end Cert.Lib
-- ==== Proof.RefStages.lean ====
/-
  The reference program's run, read stage by stage.

  The reference is one line of 142 whole-array host operations.  Read in five stretches — the edge list's rows and the
  projection; the three graph layers; the read-out — each stretch, from ANY contents of the buffers before it, leaves
  in its result buffer one dense stage applied to what it found, and leaves the edge list's rows and the arguments
  alone (a called function's operations pass their operands through typed references; those transports cancel).
  Chaining the five stretches from the launch contents gives the two results as the network function
  `Cert.Net` of the arguments, and the arguments as launched; the library's run of a straight line of host operations
  then states it of every weakly fair execution.
-/
import proofs.«131892_j35485019799983_1_alg».proof.Proof.RefRun
import proofs.«131892_j35485019799983_1_alg».proof.Proof.RefLayers
import proofs.«131892_j35485019799983_1_alg».proof.Proof.LibAfterAppend
import proofs.«131892_j35485019799983_1_alg».proof.Proof.LibTRefCasts
import Idealize.ShloMosaic.Lib.StableHlo.Run

set_option maxRecDepth 16384

noncomputable section

namespace Cert.ReferenceIdeal.Stages

open Cert.ReferenceIdeal Cert.ReferenceIdeal.ValueP Cert.ReferenceIdeal.Layers
open Idealize.ShloMosaic Idealize.ShloMosaic.TcCoe Idealize.ShloMosaic.StableHlo Idealize.SL.Sem

section Stretches

variable (W : Valuation τ sig (Elt Ideal))

set_option maxHeartbeats 4000000 in
/-- The first stretch: the projected features in the host's spelling, and the edge list's two rows as vectors. -/
theorem stage0 :
    after ops0 W (Proc.devRef .tc main_v7) = preR (W (Proc.devRef .tc main_arg0)) (W (Proc.devRef .tc main_arg2)) (W (Proc.devRef .tc main_arg3))
    ∧ after ops0 W (Proc.devRef .tc main_v1) = Net.src (W (Proc.devRef .tc main_arg1))
    ∧ after ops0 W (Proc.devRef .tc main_v3) = Net.dst (W (Proc.devRef .tc main_arg1))
    ∧ after ops0 W (Proc.devRef .tc main_arg0) = W (Proc.devRef .tc main_arg0)
    ∧ after ops0 W (Proc.devRef .tc main_arg1) = W (Proc.devRef .tc main_arg1)
    ∧ after ops0 W (Proc.devRef .tc main_arg2) = W (Proc.devRef .tc main_arg2)
    ∧ after ops0 W (Proc.devRef .tc main_arg3) = W (Proc.devRef .tc main_arg3)
    ∧ after ops0 W (Proc.devRef .tc main_arg4) = W (Proc.devRef .tc main_arg4)
    ∧ after ops0 W (Proc.devRef .tc main_arg5) = W (Proc.devRef .tc main_arg5)
    ∧ after ops0 W (Proc.devRef .tc main_arg6) = W (Proc.devRef .tc main_arg6)
    ∧ after ops0 W (Proc.devRef .tc main_arg7) = W (Proc.devRef .tc main_arg7)
    ∧ after ops0 W (Proc.devRef .tc main_arg8) = W (Proc.devRef .tc main_arg8)
    ∧ after ops0 W (Proc.devRef .tc main_arg9) = W (Proc.devRef .tc main_arg9)
    ∧ after ops0 W (Proc.devRef .tc main_arg10) = W (Proc.devRef .tc main_arg10)
    ∧ after ops0 W (Proc.devRef .tc main_arg11) = W (Proc.devRef .tc main_arg11) := by
  refine ⟨?_, ?_, ?_, ?_, ?_, ?_, ?_, ?_, ?_, ?_, ?_, ?_, ?_, ?_, ?_⟩ <;> (simp only [ops0]; after_results_simp)
    <;> (try simp only [Cert.Lib.ofBuf_toBuf, Cert.Lib.toBuf_ofBuf]) <;> rfl

set_option maxHeartbeats 4000000 in
/-- Graph layer 1's stretch, from any contents `W`: the layer applied to the aggregate of the features it finds, with
    layer 1's weight slices; the edge list's rows and the arguments are left alone. -/
theorem stage1 :
    after ops1 W (Proc.devRef .tc main_v36) = convR (Net.aggregate (W (Proc.devRef .tc main_v7)) (W (Proc.devRef .tc main_v1)) (W (Proc.devRef .tc main_v3))) (Net.w0 (W (Proc.devRef .tc main_arg4))) (Net.v0 (W (Proc.devRef .tc main_arg5))) (Net.w0 (W (Proc.devRef .tc main_arg6))) (Net.v0 (W (Proc.devRef .tc main_arg7)))
    ∧ after ops1 W (Proc.devRef .tc main_v1) = W (Proc.devRef .tc main_v1)
    ∧ after ops1 W (Proc.devRef .tc main_v3) = W (Proc.devRef .tc main_v3)
    ∧ after ops1 W (Proc.devRef .tc main_arg0) = W (Proc.devRef .tc main_arg0)
    ∧ after ops1 W (Proc.devRef .tc main_arg1) = W (Proc.devRef .tc main_arg1)
    ∧ after ops1 W (Proc.devRef .tc main_arg2) = W (Proc.devRef .tc main_arg2)
    ∧ after ops1 W (Proc.devRef .tc main_arg3) = W (Proc.devRef .tc main_arg3)
    ∧ after ops1 W (Proc.devRef .tc main_arg4) = W (Proc.devRef .tc main_arg4)
    ∧ after ops1 W (Proc.devRef .tc main_arg5) = W (Proc.devRef .tc main_arg5)
    ∧ after ops1 W (Proc.devRef .tc main_arg6) = W (Proc.devRef .tc main_arg6)
    ∧ after ops1 W (Proc.devRef .tc main_arg7) = W (Proc.devRef .tc main_arg7)
    ∧ after ops1 W (Proc.devRef .tc main_arg8) = W (Proc.devRef .tc main_arg8)
    ∧ after ops1 W (Proc.devRef .tc main_arg9) = W (Proc.devRef .tc main_arg9)
    ∧ after ops1 W (Proc.devRef .tc main_arg10) = W (Proc.devRef .tc main_arg10)
    ∧ after ops1 W (Proc.devRef .tc main_arg11) = W (Proc.devRef .tc main_arg11) := by
  refine ⟨?_, ?_, ?_, ?_, ?_, ?_, ?_, ?_, ?_, ?_, ?_, ?_, ?_, ?_, ?_⟩ <;> (simp only [ops1]; after_results_simp)
    <;> (try simp only [Cert.Lib.ofBuf_toBuf, Cert.Lib.toBuf_ofBuf]) <;> rfl

set_option maxHeartbeats 4000000 in
/-- Graph layer 2's stretch, from any contents `W`: the layer applied to the aggregate of the features it finds, with
    layer 2's weight slices; the edge list's rows and the arguments are left alone. -/
theorem stage2 :
    after ops2 W (Proc.devRef .tc main_v65) = convR (Net.aggregate (W (Proc.devRef .tc main_v36)) (W (Proc.devRef .tc main_v1)) (W (Proc.devRef .tc main_v3))) (Net.w1 (W (Proc.devRef .tc main_arg4))) (Net.v1 (W (Proc.devRef .tc main_arg5))) (Net.w1 (W (Proc.devRef .tc main_arg6))) (Net.v1 (W (Proc.devRef .tc main_arg7)))
    ∧ after ops2 W (Proc.devRef .tc main_v1) = W (Proc.devRef .tc main_v1)
    ∧ after ops2 W (Proc.devRef .tc main_v3) = W (Proc.devRef .tc main_v3)
    ∧ after ops2 W (Proc.devRef .tc main_arg0) = W (Proc.devRef .tc main_arg0)
    ∧ after ops2 W (Proc.devRef .tc main_arg1) = W (Proc.devRef .tc main_arg1)
    ∧ after ops2 W (Proc.devRef .tc main_arg2) = W (Proc.devRef .tc main_arg2)
    ∧ after ops2 W (Proc.devRef .tc main_arg3) = W (Proc.devRef .tc main_arg3)
    ∧ after ops2 W (Proc.devRef .tc main_arg4) = W (Proc.devRef .tc main_arg4)
    ∧ after ops2 W (Proc.devRef .tc main_arg5) = W (Proc.devRef .tc main_arg5)
    ∧ after ops2 W (Proc.devRef .tc main_arg6) = W (Proc.devRef .tc main_arg6)
    ∧ after ops2 W (Proc.devRef .tc main_arg7) = W (Proc.devRef .tc main_arg7)
    ∧ after ops2 W (Proc.devRef .tc main_arg8) = W (Proc.devRef .tc main_arg8)
    ∧ after ops2 W (Proc.devRef .tc main_arg9) = W (Proc.devRef .tc main_arg9)
    ∧ after ops2 W (Proc.devRef .tc main_arg10) = W (Proc.devRef .tc main_arg10)
    ∧ after ops2 W (Proc.devRef .tc main_arg11) = W (Proc.devRef .tc main_arg11) := by
  refine ⟨?_, ?_, ?_, ?_, ?_, ?_, ?_, ?_, ?_, ?_, ?_, ?_, ?_, ?_, ?_⟩ <;> (simp only [ops2]; after_results_simp)
    <;> (try simp only [Cert.Lib.ofBuf_toBuf, Cert.Lib.toBuf_ofBuf]) <;> rfl

set_option maxHeartbeats 4000000 in
/-- Graph layer 3's stretch, from any contents `W`: the layer applied to the aggregate of the features it finds, with
    layer 3's weight slices; the edge list's rows and the arguments are left alone. -/
theorem stage3 :
    after ops3 W (Proc.devRef .tc main_v94) = convR (Net.aggregate (W (Proc.devRef .tc main_v65)) (W (Proc.devRef .tc main_v1)) (W (Proc.devRef .tc main_v3))) (Net.w2 (W (Proc.devRef .tc main_arg4))) (Net.v2 (W (Proc.devRef .tc main_arg5))) (Net.w2 (W (Proc.devRef .tc main_arg6))) (Net.v2 (W (Proc.devRef .tc main_arg7)))
    ∧ after ops3 W (Proc.devRef .tc main_v1) = W (Proc.devRef .tc main_v1)
    ∧ after ops3 W (Proc.devRef .tc main_v3) = W (Proc.devRef .tc main_v3)
    ∧ after ops3 W (Proc.devRef .tc main_arg0) = W (Proc.devRef .tc main_arg0)
    ∧ after ops3 W (Proc.devRef .tc main_arg1) = W (Proc.devRef .tc main_arg1)
    ∧ after ops3 W (Proc.devRef .tc main_arg2) = W (Proc.devRef .tc main_arg2)
    ∧ after ops3 W (Proc.devRef .tc main_arg3) = W (Proc.devRef .tc main_arg3)
    ∧ after ops3 W (Proc.devRef .tc main_arg4) = W (Proc.devRef .tc main_arg4)
    ∧ after ops3 W (Proc.devRef .tc main_arg5) = W (Proc.devRef .tc main_arg5)
    ∧ after ops3 W (Proc.devRef .tc main_arg6) = W (Proc.devRef .tc main_arg6)
    ∧ after ops3 W (Proc.devRef .tc main_arg7) = W (Proc.devRef .tc main_arg7)
    ∧ after ops3 W (Proc.devRef .tc main_arg8) = W (Proc.devRef .tc main_arg8)
    ∧ after ops3 W (Proc.devRef .tc main_arg9) = W (Proc.devRef .tc main_arg9)
    ∧ after ops3 W (Proc.devRef .tc main_arg10) = W (Proc.devRef .tc main_arg10)
    ∧ after ops3 W (Proc.devRef .tc main_arg11) = W (Proc.devRef .tc main_arg11) := by
  refine ⟨?_, ?_, ?_, ?_, ?_, ?_, ?_, ?_, ?_, ?_, ?_, ?_, ?_, ?_, ?_⟩ <;> (simp only [ops3]; after_results_simp)
    <;> (try simp only [Cert.Lib.ofBuf_toBuf, Cert.Lib.toBuf_ofBuf]) <;> rfl

set_option maxHeartbeats 4000000 in
/-- The read-out's stretch: the log-softmax of the logits of the features it finds, in the host's spelling. -/
theorem stage4 :
    after ops4 W (Proc.devRef .tc main_v104) = lsmR (logitsR (W (Proc.devRef .tc main_v94)) (W (Proc.devRef .tc main_arg8)) (W (Proc.devRef .tc main_arg9)) (W (Proc.devRef .tc main_arg10)) (W (Proc.devRef .tc main_arg11)))
    ∧ after ops4 W (Proc.devRef .tc main_v94) = W (Proc.devRef .tc main_v94)
    ∧ after ops4 W (Proc.devRef .tc main_arg0) = W (Proc.devRef .tc main_arg0)
    ∧ after ops4 W (Proc.devRef .tc main_arg1) = W (Proc.devRef .tc main_arg1)
    ∧ after ops4 W (Proc.devRef .tc main_arg2) = W (Proc.devRef .tc main_arg2)
    ∧ after ops4 W (Proc.devRef .tc main_arg3) = W (Proc.devRef .tc main_arg3)
    ∧ after ops4 W (Proc.devRef .tc main_arg4) = W (Proc.devRef .tc main_arg4)
    ∧ after ops4 W (Proc.devRef .tc main_arg5) = W (Proc.devRef .tc main_arg5)
    ∧ after ops4 W (Proc.devRef .tc main_arg6) = W (Proc.devRef .tc main_arg6)
    ∧ after ops4 W (Proc.devRef .tc main_arg7) = W (Proc.devRef .tc main_arg7)
    ∧ after ops4 W (Proc.devRef .tc main_arg8) = W (Proc.devRef .tc main_arg8)
    ∧ after ops4 W (Proc.devRef .tc main_arg9) = W (Proc.devRef .tc main_arg9)
    ∧ after ops4 W (Proc.devRef .tc main_arg10) = W (Proc.devRef .tc main_arg10)
    ∧ after ops4 W (Proc.devRef .tc main_arg11) = W (Proc.devRef .tc main_arg11) := by
  refine ⟨?_, ?_, ?_, ?_, ?_, ?_, ?_, ?_, ?_, ?_, ?_, ?_, ?_, ?_⟩ <;> (simp only [ops4]; after_results_simp)
    <;> (try simp only [Cert.Lib.ofBuf_toBuf, Cert.Lib.toBuf_ofBuf]) <;> rfl

end Stretches

variable (m : (ℓ : Loc nD τ sig) → Buf (Elt Ideal) ℓ) (c : Dev nD)

/-- What rides through the stretches: the edge list's two rows as read off by the first stretch, and the arguments. -/
structure Carried (W : Valuation τ sig (Elt Ideal)) : Prop where
  s : W (Proc.devRef .tc main_v1) = Net.src (m ((c.tc : Thread nD τ).loc main_arg1))
  d : W (Proc.devRef .tc main_v3) = Net.dst (m ((c.tc : Thread nD τ).loc main_arg1))
  a0 : W (Proc.devRef .tc main_arg0) = (m ((c.tc : Thread nD τ).loc main_arg0))
  a1 : W (Proc.devRef .tc main_arg1) = (m ((c.tc : Thread nD τ).loc main_arg1))
  a2 : W (Proc.devRef .tc main_arg2) = (m ((c.tc : Thread nD τ).loc main_arg2))
  a3 : W (Proc.devRef .tc main_arg3) = (m ((c.tc : Thread nD τ).loc main_arg3))
  a4 : W (Proc.devRef .tc main_arg4) = (m ((c.tc : Thread nD τ).loc main_arg4))
  a5 : W (Proc.devRef .tc main_arg5) = (m ((c.tc : Thread nD τ).loc main_arg5))
  a6 : W (Proc.devRef .tc main_arg6) = (m ((c.tc : Thread nD τ).loc main_arg6))
  a7 : W (Proc.devRef .tc main_arg7) = (m ((c.tc : Thread nD τ).loc main_arg7))
  a8 : W (Proc.devRef .tc main_arg8) = (m ((c.tc : Thread nD τ).loc main_arg8))
  a9 : W (Proc.devRef .tc main_arg9) = (m ((c.tc : Thread nD τ).loc main_arg9))
  a10 : W (Proc.devRef .tc main_arg10) = (m ((c.tc : Thread nD τ).loc main_arg10))
  a11 : W (Proc.devRef .tc main_arg11) = (m ((c.tc : Thread nD τ).loc main_arg11))

variable {m c} in
theorem Carried.of_eq {W W' : Valuation τ sig (Elt Ideal)} (h : Carried m c W)
    (e0 : W' (Proc.devRef .tc main_v1) = W (Proc.devRef .tc main_v1))
    (e1 : W' (Proc.devRef .tc main_v3) = W (Proc.devRef .tc main_v3))
    (e2 : W' (Proc.devRef .tc main_arg0) = W (Proc.devRef .tc main_arg0))
    (e3 : W' (Proc.devRef .tc main_arg1) = W (Proc.devRef .tc main_arg1))
    (e4 : W' (Proc.devRef .tc main_arg2) = W (Proc.devRef .tc main_arg2))
    (e5 : W' (Proc.devRef .tc main_arg3) = W (Proc.devRef .tc main_arg3))
    (e6 : W' (Proc.devRef .tc main_arg4) = W (Proc.devRef .tc main_arg4))
    (e7 : W' (Proc.devRef .tc main_arg5) = W (Proc.devRef .tc main_arg5))
    (e8 : W' (Proc.devRef .tc main_arg6) = W (Proc.devRef .tc main_arg6))
    (e9 : W' (Proc.devRef .tc main_arg7) = W (Proc.devRef .tc main_arg7))
    (e10 : W' (Proc.devRef .tc main_arg8) = W (Proc.devRef .tc main_arg8))
    (e11 : W' (Proc.devRef .tc main_arg9) = W (Proc.devRef .tc main_arg9))
    (e12 : W' (Proc.devRef .tc main_arg10) = W (Proc.devRef .tc main_arg10))
    (e13 : W' (Proc.devRef .tc main_arg11) = W (Proc.devRef .tc main_arg11)) : Carried m c W' :=
  ⟨e0.trans h.s, e1.trans h.d, e2.trans h.a0, e3.trans h.a1, e4.trans h.a2, e5.trans h.a3, e6.trans h.a4, e7.trans h.a5, e8.trans h.a6, e9.trans h.a7, e10.trans h.a8, e11.trans h.a9, e12.trans h.a10, e13.trans h.a11⟩

theorem carried1 : Carried m c (after ops0 (launchContents m c)) := by
  obtain ⟨-, hs, hd, k0, k1, k2, k3, k4, k5, k6, k7, k8, k9, k10, k11⟩ := stage0 (launchContents m c)
  exact ⟨hs, hd, k0, k1, k2, k3, k4, k5, k6, k7, k8, k9, k10, k11⟩

/-- After the first stretch the reference's features buffer holds the projected features. -/
theorem feats0 : (after ops0 (launchContents m c)) (Proc.devRef .tc main_v7) = (Net.feat0 (m ((c.tc : Thread nD τ).loc main_arg0)) (m ((c.tc : Thread nD τ).loc main_arg2)) (m ((c.tc : Thread nD τ).loc main_arg3))) := by
  obtain ⟨z, -⟩ := stage0 (launchContents m c)
  rw [z, preR_eq]

theorem carried2 : Carried m c (after ops1 (after ops0 (launchContents m c))) := by
  obtain ⟨-, k0, k1, k2, k3, k4, k5, k6, k7, k8, k9, k10, k11, k12, k13⟩ := stage1 (after ops0 (launchContents m c))
  exact (carried1 m c).of_eq k0 k1 k2 k3 k4 k5 k6 k7 k8 k9 k10 k11 k12 k13

/-- After graph layer 1 the reference's features buffer holds the layer applied to the previous features. -/
theorem feats1 : (after ops1 (after ops0 (launchContents m c))) (Proc.devRef .tc main_v36) = (Net.layer (Net.feat0 (m ((c.tc : Thread nD τ).loc main_arg0)) (m ((c.tc : Thread nD τ).loc main_arg2)) (m ((c.tc : Thread nD τ).loc main_arg3))) (m ((c.tc : Thread nD τ).loc main_arg1)) (Net.w0 (m ((c.tc : Thread nD τ).loc main_arg4))) (Net.v0 (m ((c.tc : Thread nD τ).loc main_arg5))) (Net.w0 (m ((c.tc : Thread nD τ).loc main_arg6))) (Net.v0 (m ((c.tc : Thread nD τ).loc main_arg7)))) := by
  obtain ⟨z, -⟩ := stage1 (after ops0 (launchContents m c))
  have C := carried1 m c
  rw [z, feats0 m c, C.s, C.d, C.a4, C.a5, C.a6, C.a7, convR_eq]
  rfl

theorem carried3 : Carried m c (after ops2 (after ops1 (after ops0 (launchContents m c)))) := by
  obtain ⟨-, k0, k1, k2, k3, k4, k5, k6, k7, k8, k9, k10, k11, k12, k13⟩ := stage2 (after ops1 (after ops0 (launchContents m c)))
  exact (carried2 m c).of_eq k0 k1 k2 k3 k4 k5 k6 k7 k8 k9 k10 k11 k12 k13

/-- After graph layer 2 the reference's features buffer holds the layer applied to the previous features. -/
theorem feats2 : (after ops2 (after ops1 (after ops0 (launchContents m c)))) (Proc.devRef .tc main_v65) = (Net.layer (Net.layer (Net.feat0 (m ((c.tc : Thread nD τ).loc main_arg0)) (m ((c.tc : Thread nD τ).loc main_arg2)) (m ((c.tc : Thread nD τ).loc main_arg3))) (m ((c.tc : Thread nD τ).loc main_arg1)) (Net.w0 (m ((c.tc : Thread nD τ).loc main_arg4))) (Net.v0 (m ((c.tc : Thread nD τ).loc main_arg5))) (Net.w0 (m ((c.tc : Thread nD τ).loc main_arg6))) (Net.v0 (m ((c.tc : Thread nD τ).loc main_arg7)))) (m ((c.tc : Thread nD τ).loc main_arg1)) (Net.w1 (m ((c.tc : Thread nD τ).loc main_arg4))) (Net.v1 (m ((c.tc : Thread nD τ).loc main_arg5))) (Net.w1 (m ((c.tc : Thread nD τ).loc main_arg6))) (Net.v1 (m ((c.tc : Thread nD τ).loc main_arg7)))) := by
  obtain ⟨z, -⟩ := stage2 (after ops1 (after ops0 (launchContents m c)))
  have C := carried2 m c
  rw [z, feats1 m c, C.s, C.d, C.a4, C.a5, C.a6, C.a7, convR_eq]
  rfl

theorem carried4 : Carried m c (after ops3 (after ops2 (after ops1 (after ops0 (launchContents m c))))) := by
  obtain ⟨-, k0, k1, k2, k3, k4, k5, k6, k7, k8, k9, k10, k11, k12, k13⟩ := stage3 (after ops2 (after ops1 (after ops0 (launchContents m c))))
  exact (carried3 m c).of_eq k0 k1 k2 k3 k4 k5 k6 k7 k8 k9 k10 k11 k12 k13

/-- After graph layer 3 the reference's features buffer holds the layer applied to the previous features. -/
theorem feats3 : (after ops3 (after ops2 (after ops1 (after ops0 (launchContents m c))))) (Proc.devRef .tc main_v94) = (Net.layer (Net.layer (Net.layer (Net.feat0 (m ((c.tc : Thread nD τ).loc main_arg0)) (m ((c.tc : Thread nD τ).loc main_arg2)) (m ((c.tc : Thread nD τ).loc main_arg3))) (m ((c.tc : Thread nD τ).loc main_arg1)) (Net.w0 (m ((c.tc : Thread nD τ).loc main_arg4))) (Net.v0 (m ((c.tc : Thread nD τ).loc main_arg5))) (Net.w0 (m ((c.tc : Thread nD τ).loc main_arg6))) (Net.v0 (m ((c.tc : Thread nD τ).loc main_arg7)))) (m ((c.tc : Thread nD τ).loc main_arg1)) (Net.w1 (m ((c.tc : Thread nD τ).loc main_arg4))) (Net.v1 (m ((c.tc : Thread nD τ).loc main_arg5))) (Net.w1 (m ((c.tc : Thread nD τ).loc main_arg6))) (Net.v1 (m ((c.tc : Thread nD τ).loc main_arg7)))) (m ((c.tc : Thread nD τ).loc main_arg1)) (Net.w2 (m ((c.tc : Thread nD τ).loc main_arg4))) (Net.v2 (m ((c.tc : Thread nD τ).loc main_arg5))) (Net.w2 (m ((c.tc : Thread nD τ).loc main_arg6))) (Net.v2 (m ((c.tc : Thread nD τ).loc main_arg7)))) := by
  obtain ⟨z, -⟩ := stage3 (after ops2 (after ops1 (after ops0 (launchContents m c))))
  have C := carried3 m c
  rw [z, feats2 m c, C.s, C.d, C.a4, C.a5, C.a6, C.a7, convR_eq]
  rfl

/-- The whole line is the five stretches in order. -/
theorem after_ops (V : Valuation τ sig (Elt Ideal)) :
    after ops V = after ops4 (after ops3 (after ops2 (after ops1 (after ops0 V)))) := by
  rw [ops_split, Cert.Lib.after_append, Cert.Lib.after_append, Cert.Lib.after_append, Cert.Lib.after_append]

/-- THE FEATURES RESULT of the reference. -/
theorem features : after ops (launchContents m c) (Proc.devRef .tc main_v94)
    = Net.feats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨-, k94, -⟩ := stage4 (after ops3 (after ops2 (after ops1 (after ops0 (launchContents m c)))))
  rw [after_ops]
  exact k94.trans (feats3 m c)

/-- THE LOG-PROBABILITIES RESULT of the reference. -/
theorem logProbs : after ops (launchContents m c) (Proc.devRef .tc main_v104)
    = Net.logp (Net.feats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11)) := by
  obtain ⟨z, -⟩ := stage4 (after ops3 (after ops2 (after ops1 (after ops0 (launchContents m c)))))
  have C := carried4 m c
  rw [after_ops, z, feats3 m c, C.a8, C.a9, C.a10, C.a11, readout_eq]
  rfl

/-- The arguments end as launched: no stretch writes one. -/
theorem args_kept :
    after ops (launchContents m c) (Proc.devRef .tc main_arg0) = (m ((c.tc : Thread nD τ).loc main_arg0))
    ∧ after ops (launchContents m c) (Proc.devRef .tc main_arg1) = (m ((c.tc : Thread nD τ).loc main_arg1))
    ∧ after ops (launchContents m c) (Proc.devRef .tc main_arg2) = (m ((c.tc : Thread nD τ).loc main_arg2))
    ∧ after ops (launchContents m c) (Proc.devRef .tc main_arg3) = (m ((c.tc : Thread nD τ).loc main_arg3))
    ∧ after ops (launchContents m c) (Proc.devRef .tc main_arg4) = (m ((c.tc : Thread nD τ).loc main_arg4))
    ∧ after ops (launchContents m c) (Proc.devRef .tc main_arg5) = (m ((c.tc : Thread nD τ).loc main_arg5))
    ∧ after ops (launchContents m c) (Proc.devRef .tc main_arg6) = (m ((c.tc : Thread nD τ).loc main_arg6))
    ∧ after ops (launchContents m c) (Proc.devRef .tc main_arg7) = (m ((c.tc : Thread nD τ).loc main_arg7))
    ∧ after ops (launchContents m c) (Proc.devRef .tc main_arg8) = (m ((c.tc : Thread nD τ).loc main_arg8))
    ∧ after ops (launchContents m c) (Proc.devRef .tc main_arg9) = (m ((c.tc : Thread nD τ).loc main_arg9))
    ∧ after ops (launchContents m c) (Proc.devRef .tc main_arg10) = (m ((c.tc : Thread nD τ).loc main_arg10))
    ∧ after ops (launchContents m c) (Proc.devRef .tc main_arg11) = (m ((c.tc : Thread nD τ).loc main_arg11)) := by
  obtain ⟨-, -, k0, k1, k2, k3, k4, k5, k6, k7, k8, k9, k10, k11⟩ := stage4 (after ops3 (after ops2 (after ops1 (after ops0 (launchContents m c)))))
  have C := carried4 m c
  rw [after_ops]
  exact ⟨k0.trans C.a0, k1.trans C.a1, k2.trans C.a2, k3.trans C.a3, k4.trans C.a4, k5.trans C.a5, k6.trans C.a6, k7.trans C.a7, k8.trans C.a8, k9.trans C.a9, k10.trans C.a10, k11.trans C.a11⟩

/-- THE RUN: every weakly fair execution of the reference terminates with the two results at the network function of the
    arguments, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v104) = Net.logp (Net.feats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v94) = Net.feats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v94) = Net.feats (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11)) :=
  (θ_run defs _ _).mono (fun _ h c => by
      obtain ⟨g0, g1, g2, g3, g4, g5, g6, g7, g8, g9, g10, g11⟩ := args_kept m c
      exact ⟨(h c main_v104).trans (logProbs m c), (h c main_v94).trans (features m c), (h c main_v94).trans (features m c),
        (h c main_arg0).trans g0, (h c main_arg1).trans g1, (h c main_arg2).trans g2, (h c main_arg3).trans g3, (h c main_arg4).trans g4, (h c main_arg5).trans g5, (h c main_arg6).trans g6, (h c main_arg7).trans g7, (h c main_arg8).trans g8, (h c main_arg9).trans g9, (h c main_arg10).trans g10, (h c main_arg11).trans g11⟩)
    (run_seq scopedRefs_eq scopedSems_eq defs main (fun _ => ops) main_eq (fun _ => ops_sub) m ρ)

end Cert.ReferenceIdeal.Stages

end
-- ==== Proof.lean ====
/-
  The certificate of a graph-isomorphism network forward pass: a row-blocked kernel program against its array reference.

  Both programs compute, from node features `x`, an edge list and the weights: projected features `x·W + b`; three
  times, for every node, `h ← relu (relu ((h + Σ_{edges into the node} h[source])·W₁ + b₁)·W₂ + b₂)`; and the class
  log-probabilities `log_softmax (relu (h·Wₚ + bₚ)·Wᵣ + bᵣ)` by rows.  They return the log-probabilities and (twice) the
  last features.

  The kernel program runs the five dense stages as row-blocked kernels, 2000 rows per grid point, with the aggregation
  as host operations between them; the reference is one line of host operations.  Over the extended reals the changes of
  float format inside the kernels are the identity, a matrix product into a zero accumulator and the host's
  `dot_general` are the same sums of products, and the two spellings of the log-softmax are the same function, so every
  dense stage is the same index-by-index function on both sides (`Cert.Spec`), and the aggregation is literally the same
  host operations applied to equal arrays.  No law of arithmetic that needs finiteness is used: the precondition is
  not opened.

  * `Proof/KernelRun`   — the kernel program's run with its result arrays named;
  * `Proof/Blocks0…4`   — each stage's 25 row blocks make one whole-array function (the stage is row-local);
  * `Proof/Stretch`, `Proof/Chain` — the host stretches between the stages, and the two results as `Cert.Net`;
  * `Proof/RefLayers`, `Proof/RefStages` — the reference's dense stages, and its run read stage by stage as `Cert.Net`
    (over the operation list of `Proof/RefRun`).
-/
import proofs.«131892_j35485019799983_1_alg».proof.Defs
import proofs.«131892_j35485019799983_1_alg».proof.Proof.Gen.Kernel
import proofs.«131892_j35485019799983_1_alg».proof.Proof.Gen.Kernel.Frame
import proofs.«131892_j35485019799983_1_alg».proof.Proof.Gen.KernelIdeal
import proofs.«131892_j35485019799983_1_alg».proof.Proof.Gen.KernelIdeal.Frame
import proofs.«131892_j35485019799983_1_alg».proof.Proof.Gen.ReferenceIdeal
import proofs.«131892_j35485019799983_1_alg».proof.Proof.Gen.Pre_finite_inputs
import proofs.«131892_j35485019799983_1_alg».proof.Proof.KernelRun
import proofs.«131892_j35485019799983_1_alg».proof.Proof.Chain
import proofs.«131892_j35485019799983_1_alg».proof.Proof.RefStages
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_referenceIdeal : Cert.frame_ReferenceIdeal := fun m ρ _ =>
  (θ_run Cert.ReferenceIdeal.defs _ _).mono (fun _ h c => (h c).2.2.2) (Cert.ReferenceIdeal.Stages.run m ρ)

/-! ## The idealization rewrote nothing -/

theorem preserves : Cert.preserves_Kernel_KernelIdeal := trivial

/-! ## Equal results over the extended reals -/

/-- From memories agreeing on the arguments both programs end with the network's log-probabilities and features. -/
theorem algebraic : Cert.algebraic_KernelIdeal_ReferenceIdeal := by
  intro m ρ m' ρ' _ hagree
  refine ⟨fun c => (Cert.Net.logp (Cert.Net.feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))), fun c => (Cert.Net.feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), fun c => (Cert.Net.feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), ?_, ?_⟩
  · refine (θ_run (Cert.KernelIdeal.defs (F := Ideal)) _ _).mono (fun r h c => ?_) (Cert.KernelIdeal.Results.run (F := Ideal) m ρ)
    obtain ⟨h74, h71, hargs⟩ := h c
    exact ⟨h74.trans (Cert.KernelIdeal.Chain.logProbs m ρ c), h71.trans (Cert.KernelIdeal.Chain.features m ρ c),
      h71.trans (Cert.KernelIdeal.Chain.features m ρ c), hargs⟩
  · refine (θ_run (Cert.ReferenceIdeal.defs (F := Ideal)) _ _).mono (fun r h c => ?_) (Cert.ReferenceIdeal.Stages.run m' ρ')
    obtain ⟨h104, h94, -, hargs⟩ := h c
    obtain ⟨e0, e1, e2, e3, e4, e5, e6, e7, e8, e9, e10, e11⟩ := hagree c
    have hf : Cert.Net.feats (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = (Cert.Net.feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) := by
      rw [e0, e1, e2, e3, e4, e5, e6, e7]
    have hl : Cert.Net.logp (Cert.Net.feats (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = (Cert.Net.logp (Cert.Net.feats (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) := by
      rw [e0, e1, e2, e3, e4, e5, e6, e7, e8, e9, e10, e11]
    exact ⟨h104.trans hl, h94.trans hf, h94.trans hf, hargs⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
